-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1200000 : Shape := ⟨2, ![2, 1200000]⟩
abbrev S1200000 : Shape := ⟨1, ![1200000]⟩
abbrev S64x64 : Shape := ⟨2, ![64, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1200000 : S_.BroadcastsInDim S1200000 (![] : Fin 0 → Fin S1200000.rank)
  reducesTo_S1200000_S_d0 : S1200000.ReducesTo [0] S_
  bcast_S_S64x64 : S_.BroadcastsInDim S64x64 (![] : Fin 0 → Fin S64x64.rank)
  reducesTo_S64x64_S_d0_1 : S64x64.ReducesTo [0, 1] S_

variable [Facts]

def fn {F : FTy → Type} [FloatOps F] (main_arg0 : FVec F S100000x64 .f32) (main_arg1 : IVec S2x1200000 32) (main_arg2 : FVec F S1200000 .f32) (main_arg3 : FVec F S64x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1200000 .f32 := Host.absf main_arg2
  let main_cst_0 : FVec F S_ .f32 := constant S_ .f32 0x7F800000#32
  let main_v5 : FVec F S1200000 .f32 := broadcastInDim S1200000 ![] bcast_S_S1200000 main_cst_0
  let main_v6 : IVec S1200000 1 := cmpf .olt main_v4 main_v5
  let main_c_1 : IVec S_ 1 := constantI S_ 1 1#1
  let main_v7 : IVec S_ 1 := (fun x v => Host.reduce IntOp.andi x v reducesTo_S1200000_S_d0 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  main_v13
-- ==== Kernel.lean ====
abbrev S100000x64 : Shape := ⟨2, ![100000, 64]⟩
abbrev S2x1200000 : Shape := ⟨2, ![2, 1200000]⟩
abbrev S1200000 : Shape := ⟨1, ![1200000]⟩
abbrev S64x64 : Shape := ⟨2, ![64, 64]⟩
abbrev S1x1200000 : Shape := ⟨2, ![1, 1200000]⟩
abbrev S_ : Shape := ⟨0, ![]⟩
abbrev S100000 : Shape := ⟨1, ![100000]⟩
abbrev S1200000x1 : Shape := ⟨2, ![1200000, 1]⟩
abbrev S1200000x64 : Shape := ⟨2, ![1200000, 64]⟩
abbrev S100000x1 : Shape := ⟨2, ![100000, 1]⟩
abbrev S10000x64 : Shape := ⟨2, ![10000, 64]⟩

abbrev nBuf : Space → Nat
  | .hbm => 65
  | .vmem => 7
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S1200000, .f32⟩
  | .hbm, ⟨3, _⟩ => ⟨S64x64, .f32⟩
  | .hbm, ⟨4, _⟩ => ⟨S1x1200000, .i32⟩
  | .hbm, ⟨5, _⟩ => ⟨S1200000, .i32⟩
  | .hbm, ⟨6, _⟩ => ⟨S1x1200000, .i32⟩
  | .hbm, ⟨7, _⟩ => ⟨S1200000, .i32⟩
  | .hbm, ⟨8, _⟩ => ⟨S_, .f32⟩
  | .hbm, ⟨9, _⟩ => ⟨S100000, .f32⟩
  | .hbm, ⟨10, _⟩ => ⟨S1200000x1, .i32⟩
  | .hbm, ⟨11, _⟩ => ⟨S100000, .f32⟩
  | .hbm, ⟨12, _⟩ => ⟨S_, .f32⟩
  | .hbm, ⟨13, _⟩ => ⟨S100000, .f32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .i1⟩
  | .hbm, ⟨18, _⟩ => ⟨S100000, .f32⟩
  | .hbm, ⟨19, _⟩ => ⟨S_, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .i32⟩
  | .hbm, ⟨24, _⟩ => ⟨S1200000, .i32⟩
  | .hbm, ⟨25, _⟩ => ⟨S1200000, .i1⟩
  | .hbm, ⟨26, _⟩ => ⟨S_, .i32⟩
  | .hbm, ⟨27, _⟩ => ⟨S1200000, .i32⟩
  | .hbm, ⟨28, _⟩ => ⟨S1200000, .i32⟩
  | .hbm, ⟨29, _⟩ => ⟨S1200000, .i32⟩
  | .hbm, ⟨30, _⟩ => ⟨S1200000x1, .i32⟩
  | .hbm, ⟨31, _⟩ => ⟨S1200000, .f32⟩
  | .hbm, ⟨32, _⟩ => ⟨S1200000, .f32⟩
  | .hbm, ⟨33, _⟩ => ⟨S_, .i32⟩
  | .hbm, ⟨34, _⟩ => ⟨S1200000, .i32⟩
  | .hbm, ⟨35, _⟩ => ⟨S1200000, .i1⟩
  | .hbm, ⟨36, _⟩ => ⟨S_, .i32⟩
  | .hbm, ⟨37, _⟩ => ⟨S1200000, .i32⟩
  | .hbm, ⟨38, _⟩ => ⟨S1200000, .i32⟩
  | .hbm, ⟨39, _⟩ => ⟨S1200000, .i32⟩
  | .hbm, ⟨40, _⟩ => ⟨S1200000x1, .i32⟩
  | .hbm, ⟨41, _⟩ => ⟨S1200000, .f32⟩
  | .hbm, ⟨42, _⟩ => ⟨S1200000, .f32⟩
  | .hbm, ⟨43, _⟩ => ⟨S_, .i32⟩
  | .hbm, ⟨44, _⟩ => ⟨S1200000, .i32⟩
  | .hbm, ⟨45, _⟩ => ⟨S1200000, .i1⟩
  | .hbm, ⟨46, _⟩ => ⟨S_, .i32⟩
  | .hbm, ⟨47, _⟩ => ⟨S1200000, .i32⟩
  | .hbm, ⟨48, _⟩ => ⟨S1200000, .i32⟩
  | .hbm, ⟨49, _⟩ => ⟨S1200000, .i32⟩
  | .hbm, ⟨50, _⟩ => ⟨S1200000x1, .i32⟩
  | .hbm, ⟨51, _⟩ => ⟨S1200000x64, .f32⟩
  | .hbm, ⟨52, _⟩ => ⟨S1200000x1, .f32⟩
  | .hbm, ⟨53, _⟩ => ⟨S1200000x64, .f32⟩
  | .hbm, ⟨54, _⟩ => ⟨S1200000x64, .f32⟩
  | .hbm, ⟨55, _⟩ => ⟨S_, .f32⟩
  | .hbm, ⟨56, _⟩ => ⟨S100000x64, .f32⟩
  | .hbm, ⟨57, _⟩ => ⟨S1200000x1, .i32⟩
  | .hbm, ⟨58, _⟩ => ⟨S100000x64, .f32⟩
  | .hbm, ⟨59, _⟩ => ⟨S100000, .f32⟩
  | .hbm, ⟨60, _⟩ => ⟨S100000x1, .f32⟩
  | .hbm, ⟨61, _⟩ => ⟨S100000x64, .f32⟩
  | .hbm, ⟨62, _⟩ => ⟨S100000x64, .f32⟩
  | .hbm, ⟨63, _⟩ => ⟨S100000x64, .f32⟩
  | .hbm, ⟨64, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S10000x64, .f32⟩
  | .local _ .vmem, ⟨6, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_call0_v0 : Ref sig .tc := ⟨.hbm, 20, rfl⟩
abbrev main_call0_v1 : Ref sig .tc := ⟨.hbm, 21, rfl⟩
abbrev main_v12 : Ref sig .tc := ⟨.hbm, 22, rfl⟩
abbrev main_c : Ref sig .tc := ⟨.hbm, 23, rfl⟩
abbrev main_v13 : Ref sig .tc := ⟨.hbm, 24, rfl⟩
abbrev main_v14 : Ref sig .tc := ⟨.hbm, 25, rfl⟩
abbrev main_c_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_c_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_c_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S100000 : S_.BroadcastsInDim S100000 (![] : Fin 0 → Fin S100000.rank)
  bcast_S1200000_S1200000x1_0 : S1200000.BroadcastsInDim S1200000x1 (![0] : Fin 1 → Fin S1200000x1.rank)
  bcast_S_S1200000 : S_.BroadcastsInDim S1200000 (![] : Fin 0 → Fin S1200000.rank)
  bcast_S1200000x1_S1200000x64_0_1 : S1200000x1.BroadcastsInDim S1200000x64 (![0, 1] : Fin 2 → Fin S1200000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  scatter_S100000_S1200000x1_S1200000_n_0_0_1_wf : ScatterDims.WF S100000 S1200000x1 S1200000 [] [0] [0] 1
  gather_S100000_S1200000x1_S1200000_n_0_n_n_0_1_1_wf : GatherDims.WF S100000 S1200000x1 S1200000 [] [0] [] [0] [] 1 ![1]
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)

variable [Facts₀]

def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def gather_S100000_S1200000x1_S1200000_n_0_n_n_0_1_1 : GatherDims S100000 S1200000x1 S1200000 where
  offsetDims := []
  collapsedSliceDims := [0]
  operandBatchingDims := []
  startIndicesBatchingDims := []
  startIndexMap := [0]
  indexVectorDim := 1
  sliceSizes := ![1]
  wf := gather_S100000_S1200000x1_S1200000_n_0_n_n_0_1_1_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_v46) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v47) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1200000 : Shape := ⟨2, ![2, 1200000]⟩
abbrev S1200000 : Shape := ⟨1, ![1200000]⟩
abbrev S64x64 : Shape := ⟨2, ![64, 64]⟩
abbrev S100000 : Shape := ⟨1, ![100000]⟩
abbrev S1x1200000 : Shape := ⟨2, ![1, 1200000]⟩
abbrev S1300000 : Shape := ⟨1, ![1300000]⟩
abbrev S_ : Shape := ⟨0, ![]⟩
abbrev S1300000x1 : Shape := ⟨2, ![1300000, 1]⟩
abbrev S1300000x64 : Shape := ⟨2, ![1300000, 64]⟩

abbrev nBuf : Space → Nat
  | .hbm => 73
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S1200000, .f32⟩
  | .hbm, ⟨3, _⟩ => ⟨S64x64, .f32⟩
  | .hbm, ⟨4, _⟩ => ⟨S100000, .i32⟩
  | .hbm, ⟨5, _⟩ => ⟨S1x1200000, .i32⟩
  | .hbm, ⟨6, _⟩ => ⟨S1200000, .i32⟩
  | .hbm, ⟨7, _⟩ => ⟨S1300000, .i32⟩
  | .hbm, ⟨8, _⟩ => ⟨S1x1200000, .i32⟩
  | .hbm, ⟨9, _⟩ => ⟨S1200000, .i32⟩
  | .hbm, ⟨10, _⟩ => ⟨S1300000, .i32⟩
  | .hbm, ⟨11, _⟩ => ⟨S_, .f32⟩
  | .hbm, ⟨12, _⟩ => ⟨S100000, .f32⟩
  | .hbm, ⟨13, _⟩ => ⟨S1300000, .f32⟩
  | .hbm, ⟨14, _⟩ => ⟨S_, .f32⟩
  | .hbm, ⟨15, _⟩ => ⟨S100000, .f32⟩
  | .hbm, ⟨16, _⟩ => ⟨S1300000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1300000, .i32⟩
  | .hbm, ⟨28, _⟩ => ⟨S1300000, .i1⟩
  | .hbm, ⟨29, _⟩ => ⟨S_, .i32⟩
  | .hbm, ⟨30, _⟩ => ⟨S1300000, .i32⟩
  | .hbm, ⟨31, _⟩ => ⟨S1300000, .i32⟩
  | .hbm, ⟨32, _⟩ => ⟨S1300000, .i32⟩
  | .hbm, ⟨33, _⟩ => ⟨S1300000x1, .i32⟩
  | .hbm, ⟨34, _⟩ => ⟨S1300000, .f32⟩
  | .hbm, ⟨35, _⟩ => ⟨S1300000, .f32⟩
  | .hbm, ⟨36, _⟩ => ⟨S_, .i32⟩
  | .hbm, ⟨37, _⟩ => ⟨S1300000, .i32⟩
  | .hbm, ⟨38, _⟩ => ⟨S1300000, .i1⟩
  | .hbm, ⟨39, _⟩ => ⟨S_, .i32⟩
  | .hbm, ⟨40, _⟩ => ⟨S1300000, .i32⟩
  | .hbm, ⟨41, _⟩ => ⟨S1300000, .i32⟩
  | .hbm, ⟨42, _⟩ => ⟨S1300000, .i32⟩
  | .hbm, ⟨43, _⟩ => ⟨S1300000x1, .i32⟩
  | .hbm, ⟨44, _⟩ => ⟨S1300000, .f32⟩
  | .hbm, ⟨45, _⟩ => ⟨S1300000, .f32⟩
  | .hbm, ⟨46, _⟩ => ⟨S_, .i32⟩
  | .hbm, ⟨47, _⟩ => ⟨S1300000, .i32⟩
  | .hbm, ⟨48, _⟩ => ⟨S1300000, .i1⟩
  | .hbm, ⟨49, _⟩ => ⟨S_, .i32⟩
  | .hbm, ⟨50, _⟩ => ⟨S1300000, .i32⟩
  | .hbm, ⟨51, _⟩ => ⟨S1300000, .i32⟩
  | .hbm, ⟨52, _⟩ => ⟨S1300000, .i32⟩
  | .hbm, ⟨53, _⟩ => ⟨S1300000x1, .i32⟩
  | .hbm, ⟨54, _⟩ => ⟨S1300000x64, .f32⟩
  | .hbm, ⟨55, _⟩ => ⟨S1300000x1, .f32⟩
  | .hbm, ⟨56, _⟩ => ⟨S1300000x64, .f32⟩
  | .hbm, ⟨57, _⟩ => ⟨S1300000x64, .f32⟩
  | .hbm, ⟨58, _⟩ => ⟨S_, .f32⟩
  | .hbm, ⟨59, _⟩ => ⟨S100000x64, .f32⟩
  | .hbm, ⟨60, _⟩ => ⟨S1300000x1, .i32⟩
  | .hbm, ⟨61, _⟩ => ⟨S100000x64, .f32⟩
  | .hbm, ⟨62, _⟩ => ⟨S_, .f32⟩
  | .hbm, ⟨63, _⟩ => ⟨S100000x64, .f32⟩
  | .hbm, ⟨64, _⟩ => ⟨S100000x64, .f32⟩
  | .hbm, ⟨65, _⟩ => ⟨S_, .f32⟩
  | .hbm, ⟨66, _⟩ => ⟨S100000x64, .f32⟩
  | .hbm, ⟨67, _⟩ => ⟨S100000x64, .f32⟩
  | .hbm, ⟨68, _⟩ => ⟨S100000x64, .f32⟩
  | .hbm, ⟨69, _⟩ => ⟨S100000x64, .f32⟩
  | .hbm, ⟨70, _⟩ => ⟨S_, .f32⟩
  | .hbm, ⟨71, _⟩ => ⟨S100000x64, .f32⟩
  | .hbm, ⟨72, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_v25 : Ref sig .tc := ⟨.hbm, 38, rfl⟩
abbrev main_c_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_9 : Ref sig .tc := ⟨.hbm, 62, rfl⟩
abbrev main_v45 : Ref sig .tc := ⟨.hbm, 63, rfl⟩
abbrev main_v46 : Ref sig .tc := ⟨.hbm, 64, rfl⟩
abbrev main_cst_10 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_call1_cst : Ref sig .tc := ⟨.hbm, 70, rfl⟩
abbrev main_call1_v0 : Ref sig .tc := ⟨.hbm, 71, rfl⟩
abbrev main_v51 : Ref sig .tc := ⟨.hbm, 72, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  concatenates_S1200000_S100000_S1300000_d0 : Shape.Concatenates [S1200000, S100000] S1300000 0
  slices_S2x1200000_S1x1200000_1_0 : S2x1200000.Slices ![1, 0] S1x1200000
  bcast_S_S100000 : S_.BroadcastsInDim S100000 (![] : Fin 0 → Fin S100000.rank)
  bcast_S1300000_S1300000x1_0 : S1300000.BroadcastsInDim S1300000x1 (![0] : Fin 1 → Fin S1300000x1.rank)
  bcast_S_S1300000 : S_.BroadcastsInDim S1300000 (![] : Fin 0 → Fin S1300000.rank)
  bcast_S1300000x1_S1300000x64_0_1 : S1300000x1.BroadcastsInDim S1300000x64 (![0, 1] : Fin 2 → Fin S1300000x64.rank)
  bcast_S_S100000x64 : S_.BroadcastsInDim S100000x64 (![] : Fin 0 → Fin S100000x64.rank)
  scatter_S100000_S1300000x1_S1300000_n_0_0_1_wf : ScatterDims.WF S100000 S1300000x1 S1300000 [] [0] [0] 1
  gather_S100000_S1300000x1_S1300000_n_0_n_n_0_1_1_wf : GatherDims.WF S100000 S1300000x1 S1300000 [] [0] [] [0] [] 1 ![1]
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1
  dot_S100000x64_S64x64_S100000x64_1_0_0_1_n_n_wf : DotDims.WF S100000x64 S64x64 S100000x64 [1] [0] [0] [1] [] []

variable [Facts₀]

def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def gather_S100000_S1300000x1_S1300000_n_0_n_n_0_1_1 : GatherDims S100000 S1300000x1 S1300000 where
  offsetDims := []
  collapsedSliceDims := [0]
  operandBatchingDims := []
  startIndicesBatchingDims := []
  startIndexMap := [0]
  indexVectorDim := 1
  sliceSizes := ![1]
  wf := gather_S100000_S1300000x1_S1300000_n_0_n_n_0_1_1_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.LibPlainMatmul.lean ====
/-
  A matrix product of an M × K by a K × N matrix into a zero accumulator, read at one entry on the extended
  reals: entry (i, j) is Σ_k lhs (i, k) · rhs (k, j). No rounding and no order of accumulation is left in it.
-/
import Idealize.ShloMosaic.PureOps.Ideal.Laws
import Idealize.ShloMosaic.Lib.ValueIdx

noncomputable section

namespace Cert.PlainMatmul

open Idealize.ShloMosaic Idealize.ShloMosaic.ValueIdx

/-- Entry (i, j) of the product of `lhs` (M × K) and `rhs` (K × N) accumulated into zeros. -/
theorem matmul_zero_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

end Cert.PlainMatmul

end
-- ==== Proof.LibHostReads.lean ====
/-
  Three host-side readings at an entry, over any sizes, on the extended reals.

  * A plain matrix product on the host (an M × K by a K × N `dot_general`, no batch axes): entry (i, j) is
    Σ_k lhs (i, k) · rhs (k, j).
  * One matrix picked out of a tensor [G, O, K, N] by slicing the first axis at g, dropping it, slicing the next at o
    and dropping it too: entry (k, n) of the result is the tensor at (g, o, k, n).
  * One row picked out of a table [G, N] at g, flattened, and broadcast down M rows: entry (i, n) of the result is
    the table at (g, n).
-/
import Idealize.ShloMosaic.PureOps.Ideal.Laws
import Idealize.ShloMosaic.Lib.Pipeline.Value
import Idealize.ShloMosaic.Lib.ValueIdx

noncomputable section

open scoped BigOperators

namespace Cert.LibHostReads

open Idealize.ShloMosaic Idealize.ShloMosaic.ValueIdx

/-- Entry (i, j) of the host's plain product of `lhs` (M × K) and `rhs` (K × N). -/
theorem dotGeneral_plain_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    Host.dotGeneral (F := Ideal) (DotDims.plain M K N) prec lhs rhs (ix2 i j) = ∑ k : Fin K, lhs (ix2 i k) * rhs (ix2 k j) := by
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

/-- One matrix of a [G, O, K, N] tensor, picked by two slice-and-drop steps, read at (k, n). -/
theorem select_matrix_apply {α : Type} {G O K N : Nat} (W : (⟨4, ![G, O, K, N]⟩ : Shape).Idx → α) (g : Fin G) (o : Fin O)
    (h1 : (⟨4, ![G, O, K, N]⟩ : Shape).Slices ![g.val, 0, 0, 0] ⟨4, ![1, O, K, N]⟩)
    (h2 : (⟨4, ![1, O, K, N]⟩ : Shape).ShapeCasts ⟨3, ![O, K, N]⟩)
    (h3 : (⟨3, ![O, K, N]⟩ : Shape).Slices ![o.val, 0, 0] ⟨3, ![1, K, N]⟩)
    (h4 : (⟨3, ![1, K, N]⟩ : Shape).ShapeCasts ⟨2, ![K, N]⟩) (k : Fin K) (n : Fin N) :
    shapeCast ⟨2, ![K, N]⟩ (extractStridedSlice ⟨3, ![1, K, N]⟩ ![o.val, 0, 0]
      (shapeCast ⟨3, ![O, K, N]⟩ (extractStridedSlice ⟨4, ![1, O, K, N]⟩ ![g.val, 0, 0, 0] W h1) h2) h3) h4 (ix2 k n)
      = W (ix4 g o k n) := by
  refine (shapeCast_apply _ h4 (ix2 k n) (ix3 (0 : Fin 1) k n) ?_).trans ?_
  · rewrite [Shape.rowMajor_val_three, Shape.rowMajor_val_two]
    show ((0 : Fin 1).val * K + k.val) * N + n.val = k.val * N + n.val
    simp
  refine (extractStridedSlice_apply ![o.val, 0, 0] _ h3 (ix3 (0 : Fin 1) k n) (ix3 o k n) ?_).trans ?_
  · intro a
    match a with
    | ⟨0, _⟩ => show o.val = o.val + (0 : Fin 1).val; simp
    | ⟨1, _⟩ => show k.val = 0 + k.val; omega
    | ⟨2, _⟩ => show n.val = 0 + n.val; omega
  refine (shapeCast_apply _ h2 (ix3 o k n) (ix4 (0 : Fin 1) o k n) ?_).trans ?_
  · rewrite [Shape.rowMajor_val_four, Shape.rowMajor_val_three]
    show (((0 : Fin 1).val * O + o.val) * K + k.val) * N + n.val = (o.val * K + k.val) * N + n.val
    simp
  refine extractStridedSlice_apply ![g.val, 0, 0, 0] W h1 (ix4 (0 : Fin 1) o k n) (ix4 g o k n) ?_
  intro a
  match a with
  | ⟨0, _⟩ => show g.val = g.val + (0 : Fin 1).val; simp
  | ⟨1, _⟩ => show o.val = 0 + o.val; omega
  | ⟨2, _⟩ => show k.val = 0 + k.val; omega
  | ⟨3, _⟩ => show n.val = 0 + n.val; omega

/-- One row of a [G, N] table picked at g, flattened and broadcast down M rows, read at (i, n). -/
theorem select_row_apply {α : Type} {G N M : Nat} (hN : N ≠ 1) (B : (⟨2, ![G, N]⟩ : Shape).Idx → α) (g : Fin G)
    (h1 : (⟨2, ![G, N]⟩ : Shape).Slices ![g.val, 0] ⟨2, ![1, N]⟩)
    (h2 : (⟨2, ![1, N]⟩ : Shape).ShapeCasts ⟨1, ![N]⟩)
    (h3 : (⟨1, ![N]⟩ : Shape).BroadcastsInDim ⟨2, ![1, N]⟩ ![1])
    (h4 : (⟨2, ![1, N]⟩ : Shape).BroadcastsInDim ⟨2, ![M, N]⟩ ![0, 1]) (i : Fin M) (n : Fin N) :
    broadcastInDim ⟨2, ![M, N]⟩ ![0, 1] h4 (broadcastInDim ⟨2, ![1, N]⟩ ![1] h3
      (shapeCast ⟨1, ![N]⟩ (extractStridedSlice ⟨2, ![1, N]⟩ ![g.val, 0] B h1) h2)) (ix2 i n) = B (ix2 g n) := by
  refine (broadcastInDim_apply _ h4 _ (ix2 i n) (ix2 (0 : Fin 1) n) ?_).trans ?_
  · intro a
    match a with
    | ⟨0, _⟩ => show (0 : Fin 1).val = if (1 : Nat) = 1 then 0 else i.val; rw [if_pos rfl]; rfl
    | ⟨1, _⟩ => show n.val = if N = 1 then 0 else n.val; rw [if_neg hN]
  refine (broadcastInDim_apply _ h3 _ (ix2 (0 : Fin 1) n) (ix1 n) ?_).trans ?_
  · intro a
    match a with
    | ⟨0, _⟩ => show n.val = if N = 1 then 0 else n.val; rw [if_neg hN]
  refine (shapeCast_apply _ h2 (ix1 n) (ix2 (0 : Fin 1) n) ?_).trans ?_
  · rewrite [Shape.rowMajor_val_two, Shape.rowMajor_val_one]
    show (0 : Fin 1).val * N + n.val = n.val
    simp
  refine extractStridedSlice_apply ![g.val, 0] B h1 (ix2 (0 : Fin 1) n) (ix2 g n) ?_
  intro a
  match a with
  | ⟨0, _⟩ => show g.val = g.val + (0 : Fin 1).val; simp
  | ⟨1, _⟩ => show n.val = 0 + n.val; omega

end Cert.LibHostReads

end
-- ==== Proof.LibHostLayout.lean ====
/-
  Two host re-layings read at one entry, over any sizes and any element type.

  * A matrix transposed: the result at (i, j) is the matrix at (j, i).
  * A vector of N entries laid as a row [1, N] and then down M rows, by two `broadcast_in_dim`s: the result at (r, c)
    is entry c.
  * A rank-zero value broadcast to a matrix: every entry is the value.
-/
import Idealize.ShloMosaic.Lib.Pipeline.Value
import Idealize.ShloMosaic.Lib.ValueIdx

noncomputable section

namespace Cert.HostLayout

open Idealize.ShloMosaic Idealize.ShloMosaic.ValueIdx

/-- A transposed matrix at (i, j) is the matrix at (j, i). -/
theorem transpose2_apply {α : Type} {a b : ℕ} (x : (⟨2, ![a, b]⟩ : Shape).Idx → α)
    (h : (⟨2, ![a, b]⟩ : Shape).Transposes [1, 0] ⟨2, ![b, a]⟩) (i : Fin b) (j : Fin a) :
    transpose ⟨2, ![b, a]⟩ [1, 0] x h (ix2 i j) = x (ix2 j i) := by
  refine transpose_apply [1, 0] x h (ix2 i j) (ix2 j i) fun q => ?_
  match q with
  | ⟨0, _⟩ => rfl
  | ⟨1, _⟩ => rfl

/-- A vector laid as a row and then down M rows reads, at (r, c), entry c. -/
theorem biasRow_apply {α : Type} {M N : ℕ} (v : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (c : Fin N) :
    broadcastInDim ⟨2, ![M, N]⟩ ![0, 1] h2 (broadcastInDim ⟨2, ![1, N]⟩ ![1] h1 v) (ix2 r c) = v (ix1 c) := by
  refine (broadcastInDim_apply _ h2 _ (ix2 r c) (ix2 (0 : Fin 1) c) fun a => ?_).trans
    (broadcastInDim_apply _ h1 v (ix2 (0 : Fin 1) c) (ix1 c) fun a => ?_)
  · match a with
    | ⟨0, _⟩ => show (0 : Fin 1).val = if (1 : Nat) = 1 then 0 else r.val; rw [if_pos rfl]; rfl
    | ⟨1, _⟩ =>
      show c.val = if N = 1 then 0 else c.val
      split
      · have := c.isLt; omega
      · rfl
  · match a with
    | ⟨0, _⟩ =>
      show c.val = if N = 1 then 0 else c.val
      split
      · have := c.isLt; omega
      · rfl

/-- A rank-zero value broadcast to any shape reads the value everywhere. -/
theorem scalar_apply {α : Type} {t : Shape} (u : (⟨0, ![]⟩ : Shape).Idx → α)
    (h : (⟨0, ![]⟩ : Shape).BroadcastsInDim t ![]) (i : t.Idx) :
    broadcastInDim t ![] h u i = u (fun a => a.elim0) :=
  broadcastInDim_apply ![] h u i (fun a => a.elim0) (fun a => a.elim0)

end Cert.HostLayout

end
-- ==== Proof.LibBlockRows.lean ====
/-
  Picking rows out of a matrix, and the layers of a dense graph network read on the picked rows.

  A map ρ from the row numbers of a small matrix to the row numbers of a tall one lays rows ρ 0, ρ 1, … of the
  tall matrix as a matrix of its own (`rowsOf`). Every layer below acts on each row separately, so computing the
  layer on the picked rows gives the picked rows of the layer computed on the whole matrix:

  * a product with a fixed right factor, Σ_k A (r, k) · G (k, c): the matrix unit's product into a zero
    accumulator on the picked rows against the host's plain product on the whole;
  * a bias, one vector of N numbers added to every row: the vector laid as a row and broadcast down the picked
    rows against two host broadcasts down all rows;
  * the entry-by-entry operations (sum, product, maximum, exponential) and a constant splat.

  Everything is on the extended reals, where a change of float format is the identity, so an operand may first
  have been converted to a narrower format.
-/
import Idealize.ShloMosaic.PureOps.Ideal.Laws
import Idealize.ShloMosaic.Lib.Pipeline.Value
import Idealize.ShloMosaic.Lib.ValueIdx
import Idealize.ShloMosaic.Lib.ValueLayout
import proofs.«149535_j85031762526673_2_alg».proof.Proof.LibPlainMatmul
import proofs.«149535_j85031762526673_2_alg».proof.Proof.LibHostReads
import proofs.«149535_j85031762526673_2_alg».proof.Proof.LibHostLayout

noncomputable section

open scoped BigOperators

namespace Cert.BlockRows

open Idealize.ShloMosaic Idealize.ShloMosaic.ValueIdx

variable {TM M K N : Nat}

/-- Rows ρ 0, ρ 1, … of an M-row matrix, laid as a TM-row matrix. -/
def rowsOf {α : Type} (ρ : Fin TM → Fin M) (X : (⟨2, ![M, K]⟩ : Shape).Idx → α) : (⟨2, ![TM, K]⟩ : Shape).Idx → α :=
  fun j => X (ix2 (ρ (j 0)) (j 1))

/-- Entry (p, k) of the picked rows is entry (ρ p, k) of the matrix. -/
theorem rowsOf_apply {α : Type} (ρ : Fin TM → Fin M) (X : (⟨2, ![M, K]⟩ : Shape).Idx → α) (p : Fin TM) (k : Fin K) :
    rowsOf ρ X (ix2 p k) = X (ix2 (ρ p) k) := rfl

/-- Picking every row in place changes nothing. -/
theorem rowsOf_id {α : Type} (X : (⟨2, ![M, K]⟩ : Shape).Idx → α) : rowsOf (fun p : Fin M => p) X = X := by
  funext j
  exact congrArg X (eq_ix2 j).symm

/-- Row p of block t when M rows are cut into n blocks of TM rows each: row TM · t + p. -/
def blockRow (TM n M : Nat) (h : TM * n ≤ M) (t : Fin n) : Fin TM → Fin M := fun p =>
  ⟨TM * t.val + p.val, by
    have ht := t.isLt
    have hp := p.isLt
    calc TM * t.val + p.val < TM * t.val + TM := by omega
      _ = TM * (t.val + 1) := by rw [Nat.mul_succ]
      _ ≤ TM * n := Nat.mul_le_mul_left _ (by omega)
      _ ≤ M := h⟩

/-- Its row number. -/
theorem blockRow_val (TM n M : Nat) (h : TM * n ≤ M) (t : Fin n) (p : Fin TM) :
    (blockRow TM n M h t p).val = TM * t.val + p.val := rfl

/-- A sum of picked rows is the picked rows of the sum. -/
theorem addf_rows {φ : FTy} (ρ : Fin TM → Fin M) (X Y : FVec Ideal ⟨2, ![M, N]⟩ φ) :
    addf (rowsOf ρ X) (rowsOf ρ Y) = rowsOf ρ (addf X Y) := rfl

/-- A product, entry by entry, of picked rows is the picked rows of the product. -/
theorem mulf_rows {φ : FTy} (ρ : Fin TM → Fin M) (X Y : FVec Ideal ⟨2, ![M, N]⟩ φ) :
    mulf (rowsOf ρ X) (rowsOf ρ Y) = rowsOf ρ (mulf X Y) := rfl

/-- The exponential of picked rows is the picked rows of the host's exponential: one function on the extended reals. -/
theorem exp_rows {φ : FTy} (ρ : Fin TM → Fin M) (X : FVec Ideal ⟨2, ![M, N]⟩ φ) :
    exp (rowsOf ρ X) = rowsOf ρ (Host.exp X) := rfl

/-- The host's plain product of an M × K by a K × N matrix. -/
def propagate (A : FVec Ideal ⟨2, ![M, K]⟩ .f32) (G : FVec Ideal ⟨2, ![K, N]⟩ .f32) : FVec Ideal ⟨2, ![M, N]⟩ .f32 :=
  Host.dotGeneral (F := Ideal) (DotDims.plain M K N) none A G

/-- The host's dense layer: the plain product X · W plus the one row B added to every row. -/
def dense (h2 : (⟨2, ![1, N]⟩ : Shape).BroadcastsInDim ⟨2, ![M, N]⟩ ![0, 1])
    (X : FVec Ideal ⟨2, ![M, K]⟩ .f32) (W : FVec Ideal ⟨2, ![K, N]⟩ .f32) (B : FVec Ideal ⟨2, ![1, N]⟩ .f32) :
    FVec Ideal ⟨2, ![M, N]⟩ .f32 :=
  addf (Host.dotGeneral (F := Ideal) (DotDims.plain M K N) none X W) (broadcastInDim ⟨2, ![M, N]⟩ ![0, 1] h2 B)

/-- The host's maximum with zero, the zero a rank-zero constant broadcast to the matrix. -/
def relu (h0 : (⟨0, ![]⟩ : Shape).BroadcastsInDim ⟨2, ![M, N]⟩ ![]) (Y : FVec Ideal ⟨2, ![M, N]⟩ .f32) :
    FVec Ideal ⟨2, ![M, N]⟩ .f32 :=
  maximumf Y (broadcastInDim ⟨2, ![M, N]⟩ ![] h0 (constant (F := Ideal) ⟨0, ![]⟩ .f32 0x00000000#32))

/-- The host's product with a constant, the constant of word `w` broadcast from rank zero. -/
def scaled (w : BitVec 32) (h0 : (⟨0, ![]⟩ : Shape).BroadcastsInDim ⟨2, ![M, N]⟩ ![]) (Y : FVec Ideal ⟨2, ![M, N]⟩ .f32) :
    FVec Ideal ⟨2, ![M, N]⟩ .f32 :=
  mulf (broadcastInDim ⟨2, ![M, N]⟩ ![] h0 (constant (F := Ideal) ⟨0, ![]⟩ .f32 w)) Y

/-- The product with a fixed right factor, row by row: when row p of `a` is row ρ p of `A` and `g` is `G`, the
    matrix unit's product of `a` and `g` into zeros is the picked rows of the host's product of `A` and `G`. -/
theorem matmul_rows (ρ : Fin TM → Fin M) {φ₁ φ₂ : FTy} (prec prec' : Option ContractPrecision)
    (a : FVec Ideal ⟨2, ![TM, K]⟩ φ₁) (g : FVec Ideal ⟨2, ![K, N]⟩ φ₂)
    (A : FVec Ideal ⟨2, ![M, K]⟩ .f32) (G : FVec Ideal ⟨2, ![K, N]⟩ .f32)
    (ha : ∀ (p : Fin TM) (k : Fin K), (a (ix2 p k) : EReal) = A (ix2 (ρ p) k))
    (hg : ∀ (k : Fin K) (n : Fin N), (g (ix2 k n) : EReal) = G (ix2 k n)) :
    matmul (DotDims.plain TM K N) prec a g (constant ⟨2, ![TM, N]⟩ .f32 0x00000000#32)
      = rowsOf ρ (Host.dotGeneral (F := Ideal) (DotDims.plain M K N) prec' A G) := by
  funext j
  obtain ⟨p, c, rfl⟩ : ∃ (p : Fin TM) (c : Fin N), j = ix2 p c := ⟨j 0, j 1, eq_ix2 j⟩
  rw [rowsOf_apply, Cert.LibHostReads.dotGeneral_plain_apply]
  refine (Cert.PlainMatmul.matmul_zero_apply TM K N prec a g p c).trans ?_
  exact Finset.sum_congr rfl fun k _ => congrArg₂ (· * ·) (ha p k) (hg k c)

/-- The propagation step on picked rows: the matrix unit's product, into zeros, of the picked rows of A and the
    whole of G — both first converted to a narrower float format, which changes nothing on the extended reals — is
    the picked rows of the host's product A · G. -/
theorem propagate_rows (ρ : Fin TM → Fin M) {ψ : FTy} (hψ : ψ.bits < FTy.f32.bits)
    (hs : (⟨2, ![K, N]⟩ : Shape).ShapeCasts ⟨2, ![K, N]⟩)
    (A : FVec Ideal ⟨2, ![M, K]⟩ .f32) (G : FVec Ideal ⟨2, ![K, N]⟩ .f32) :
    matmul (DotDims.plain TM K N) none (truncf ψ (rowsOf ρ A) hψ) (truncf ψ (shapeCast ⟨2, ![K, N]⟩ G hs) hψ)
        (constant ⟨2, ![TM, N]⟩ .f32 0x00000000#32)
      = rowsOf ρ (propagate A G) := by
  rw [shapeCast_self]
  exact matmul_rows ρ none none _ _ A G (fun _ _ => rfl) (fun _ _ => rfl)

/-- A dense layer on picked rows: the matrix unit's product of the picked rows of X and the whole of W into zeros,
    plus the row B broadcast down the picked rows, is the picked rows of the host's layer on X. -/
theorem dense_rows (ρ : Fin TM → Fin M)
    (hsw : (⟨2, ![K, N]⟩ : Shape).ShapeCasts ⟨2, ![K, N]⟩) (hs : (⟨2, ![1, N]⟩ : Shape).ShapeCasts ⟨2, ![1, N]⟩)
    (hb : (⟨2, ![1, N]⟩ : Shape).Broadcasts ⟨2, ![TM, N]⟩)
    (h2 : (⟨2, ![1, N]⟩ : Shape).BroadcastsInDim ⟨2, ![M, N]⟩ ![0, 1])
    (X : FVec Ideal ⟨2, ![M, K]⟩ .f32) (W : FVec Ideal ⟨2, ![K, N]⟩ .f32) (B : FVec Ideal ⟨2, ![1, N]⟩ .f32) :
    addf (matmul (DotDims.plain TM K N) none (rowsOf ρ X) (shapeCast ⟨2, ![K, N]⟩ W hsw)
          (constant ⟨2, ![TM, N]⟩ .f32 0x00000000#32))
        (broadcastTo ⟨2, ![TM, N]⟩ (shapeCast ⟨2, ![1, N]⟩ B hs) hb)
      = rowsOf ρ (dense h2 X W B) := by
  rw [shapeCast_self, shapeCast_self, matmul_rows ρ none none (rowsOf ρ X) W X W (fun _ _ => rfl) (fun _ _ => rfl)]
  unfold dense
  rw [← addf_rows]
  refine congrArg (addf (rowsOf ρ (Host.dotGeneral (F := Ideal) (DotDims.plain M K N) none X W))) ?_
  funext j
  obtain ⟨p, c, rfl⟩ : ∃ (p : Fin TM) (c : Fin N), j = ix2 p c := ⟨j 0, j 1, eq_ix2 j⟩
  rw [broadcastTo_1b_ab_apply, rowsOf_apply]
  refine (broadcastInDim_apply _ h2 B (ix2 (ρ p) c) (ix2 (0 : Fin 1) c) fun a => ?_).symm
  match a with
  | ⟨0, _⟩ => show (0 : Fin 1).val = if (1 : Nat) = 1 then 0 else (ρ p).val; rw [if_pos rfl]; rfl
  | ⟨1, _⟩ =>
    show c.val = if N = 1 then 0 else c.val
    split
    · have := c.isLt; omega
    · rfl

/-- A vector of N numbers reshaped to one row is the same vector broadcast into a row along its one axis. -/
theorem reshape_row {α : Type} (v : (⟨1, ![N]⟩ : Shape).Idx → α) (hs : (⟨1, ![N]⟩ : Shape).ShapeCasts ⟨2, ![1, N]⟩)
    (h1 : (⟨1, ![N]⟩ : Shape).BroadcastsInDim ⟨2, ![1, N]⟩ ![1]) :
    shapeCast ⟨2, ![1, N]⟩ v hs = broadcastInDim ⟨2, ![1, N]⟩ ![1] h1 v := by
  funext i
  obtain ⟨z, c, rfl⟩ : ∃ (z : Fin 1) (c : Fin N), i = ix2 z c := ⟨i 0, i 1, eq_ix2 i⟩
  have hz : z.val = 0 := by have := z.isLt; omega
  refine (shapeCast_apply v hs (ix2 z c) (ix1 c) ?_).trans (broadcastInDim_apply ![1] h1 v (ix2 z c) (ix1 c) fun a => ?_).symm
  · rewrite [Shape.rowMajor_val_two, Shape.rowMajor_val_one]
    show c.val = z.val * N + c.val
    rw [hz]; simp
  · match a with
    | ⟨0, _⟩ =>
      show c.val = if N = 1 then 0 else c.val
      split
      · have := c.isLt; omega
      · rfl

/-- A constant splat over TM rows is the picked rows of the same constant broadcast from rank zero over M rows. -/
theorem splat_rows (ρ : Fin TM → Fin M) (w : BitVec 32) (h : (⟨0, ![]⟩ : Shape).BroadcastsInDim ⟨2, ![M, N]⟩ ![]) :
    (broadcast ⟨2, ![TM, N]⟩ (Scalar.ofBits (F := Ideal) .f32 w) : FVec Ideal ⟨2, ![TM, N]⟩ .f32)
      = rowsOf ρ (broadcastInDim ⟨2, ![M, N]⟩ ![] h (constant (F := Ideal) ⟨0, ![]⟩ .f32 w)) := by
  funext j
  exact (Cert.HostLayout.scalar_apply (constant (F := Ideal) ⟨0, ![]⟩ .f32 w) h (ix2 (ρ (j 0)) (j 1))).symm

/-- The maximum with a splat zero of picked rows is the picked rows of the host's maximum with zero. -/
theorem relu_rows (ρ : Fin TM → Fin M) (h0 : (⟨0, ![]⟩ : Shape).BroadcastsInDim ⟨2, ![M, N]⟩ ![])
    (Y : FVec Ideal ⟨2, ![M, N]⟩ .f32) :
    maximumf (rowsOf ρ Y) (broadcast ⟨2, ![TM, N]⟩ (Scalar.ofBits (F := Ideal) .f32 0x00000000#32)) = rowsOf ρ (relu h0 Y) := by
  rw [splat_rows ρ 0x00000000#32 h0]; rfl

/-- The product of a splat constant with picked rows is the picked rows of the host's product with the constant. -/
theorem scaled_rows (ρ : Fin TM → Fin M) (w : BitVec 32) (h0 : (⟨0, ![]⟩ : Shape).BroadcastsInDim ⟨2, ![M, N]⟩ ![])
    (Y : FVec Ideal ⟨2, ![M, N]⟩ .f32) :
    mulf (broadcast ⟨2, ![TM, N]⟩ (Scalar.ofBits (F := Ideal) .f32 w)) (rowsOf ρ Y) = rowsOf ρ (scaled w h0 Y) := by
  rw [splat_rows ρ w h0]; rfl

end Cert.BlockRows

end
-- ==== Proof.LibResidualDense.lean ====
/-
  A dense layer with an initial residual, on picked rows and on the whole tables, over any sizes.

  Two tables A and X of M rows and K columns, a weight matrix W of K by N, two constants a and b given as f32 words:
  the layer is

      max ( (a · A + b · X) · W , 0 ),

  a matrix product after an entry-by-entry combination, then the maximum with zero. Every row of the result depends
  on the same row of A and of X only, so the vector unit computing the layer on rows ρ 0, ρ 1, … of the two tables
  (the combination converted to a narrower float format before the product, which changes nothing on the extended
  reals) gets rows ρ 0, ρ 1, … of the layer the host computes on the whole tables.
-/
import Idealize.ShloMosaic.PureOps.Ideal.Laws
import Idealize.ShloMosaic.Lib.Pipeline.Value
import Idealize.ShloMosaic.Lib.ValueIdx
import proofs.«149535_j85031762526673_2_alg».proof.Proof.LibBlockRows

noncomputable section

namespace Cert.LibResidualDense

open Idealize.ShloMosaic Idealize.ShloMosaic.ValueIdx Cert.BlockRows

variable {TM M K N : Nat}

/-- The host's layer on the whole tables: max ((a · A + b · X) · W, 0), the constants broadcast from rank zero
    (spelt for any float instance; on the extended reals it is `relu` of `propagate` of the two `scaled` tables added). -/
def layer {F : FTy → Type} [FloatOps F] (ca cb : BitVec 32) (hk : (⟨0, ![]⟩ : Shape).BroadcastsInDim ⟨2, ![M, K]⟩ ![])
    (hn : (⟨0, ![]⟩ : Shape).BroadcastsInDim ⟨2, ![M, N]⟩ ![])
    (A X : FVec F ⟨2, ![M, K]⟩ .f32) (W : FVec F ⟨2, ![K, N]⟩ .f32) : FVec F ⟨2, ![M, N]⟩ .f32 :=
  maximumf (Host.dotGeneral (F := F) (DotDims.plain M K N) none
      (addf (mulf (broadcastInDim ⟨2, ![M, K]⟩ ![] hk (constant (F := F) ⟨0, ![]⟩ .f32 ca)) A)
        (mulf (broadcastInDim ⟨2, ![M, K]⟩ ![] hk (constant (F := F) ⟨0, ![]⟩ .f32 cb)) X)) W)
    (broadcastInDim ⟨2, ![M, N]⟩ ![] hn (constant (F := F) ⟨0, ![]⟩ .f32 0x00000000#32))

/-- On the extended reals the layer is the maximum with zero of the product of the combined tables with W. -/
theorem layer_eq (ca cb : BitVec 32) (hk : (⟨0, ![]⟩ : Shape).BroadcastsInDim ⟨2, ![M, K]⟩ ![])
    (hn : (⟨0, ![]⟩ : Shape).BroadcastsInDim ⟨2, ![M, N]⟩ ![])
    (A X : FVec Ideal ⟨2, ![M, K]⟩ .f32) (W : FVec Ideal ⟨2, ![K, N]⟩ .f32) :
    layer (F := Ideal) ca cb hk hn A X W = relu hn (propagate (addf (scaled ca hk A) (scaled cb hk X)) W) := rfl

/-- THE LAYER ON PICKED ROWS: the vector unit's spelling — splat constants, a conversion of both factors to a
    narrower format, the matrix unit's product into zeros, the maximum with a splat zero — on rows ρ of A and of X is
    rows ρ of the host's layer. The blocks are given by what they hold, entry by entry. -/
theorem body_rows (ρ : Fin TM → Fin M) (ca cb : BitVec 32) {ψ : FTy} (hψ : ψ.bits < FTy.f32.bits)
    (hs : (⟨2, ![TM, K]⟩ : Shape).ShapeCasts ⟨2, ![TM, K]⟩)
    (hk : (⟨0, ![]⟩ : Shape).BroadcastsInDim ⟨2, ![M, K]⟩ ![])
    (hn : (⟨0, ![]⟩ : Shape).BroadcastsInDim ⟨2, ![M, N]⟩ ![])
    (A X : FVec Ideal ⟨2, ![M, K]⟩ .f32) (W : FVec Ideal ⟨2, ![K, N]⟩ .f32)
    (a x : FVec Ideal ⟨2, ![TM, K]⟩ .f32) (w : FVec Ideal ⟨2, ![K, N]⟩ .f32)
    (ha : ∀ (p : Fin TM) (k : Fin K), a (ix2 p k) = A (ix2 (ρ p) k))
    (hx : ∀ (p : Fin TM) (k : Fin K), x (ix2 p k) = X (ix2 (ρ p) k))
    (hw : ∀ (k : Fin K) (n : Fin N), w (ix2 k n) = W (ix2 k n)) :
    maximumf (matmul (DotDims.plain TM K N) none
        (truncf ψ (addf (mulf (broadcast ⟨2, ![TM, K]⟩ (Scalar.ofBits (F := Ideal) .f32 ca)) (shapeCast ⟨2, ![TM, K]⟩ a hs))
          (mulf (broadcast ⟨2, ![TM, K]⟩ (Scalar.ofBits (F := Ideal) .f32 cb)) x)) hψ)
        (truncf ψ w hψ) (constant ⟨2, ![TM, N]⟩ .f32 0x00000000#32))
      (broadcast ⟨2, ![TM, N]⟩ (Scalar.ofBits (F := Ideal) .f32 0x00000000#32))
      = rowsOf ρ (layer (F := Ideal) ca cb hk hn A X W) := by
  have ea : a = rowsOf ρ A := funext fun j => by
    obtain ⟨p, k, rfl⟩ : ∃ (p : Fin TM) (k : Fin K), j = ix2 p k := ⟨j 0, j 1, eq_ix2 j⟩
    exact ha p k
  have ex : x = rowsOf ρ X := funext fun j => by
    obtain ⟨p, k, rfl⟩ : ∃ (p : Fin TM) (k : Fin K), j = ix2 p k := ⟨j 0, j 1, eq_ix2 j⟩
    exact hx p k
  subst ea ex
  rw [shapeCast_self, scaled_rows ρ ca hk A, scaled_rows ρ cb hk X, addf_rows,
    matmul_rows ρ none none (truncf ψ (rowsOf ρ (addf (scaled ca hk A) (scaled cb hk X))) hψ) (truncf ψ w hψ)
      (addf (scaled ca hk A) (scaled cb hk X)) W (fun _ _ => rfl) (fun k n => hw k n)]
  rw [layer_eq]
  exact relu_rows ρ hn _

end Cert.LibResidualDense

end
-- ==== Proof.LibRowGatherScatter.lean ====
/-
  Rows gathered and rows scattered, read at one element, over any sizes.

  A table `x` of R rows and C columns; N index words. The row gather makes the N × C table whose row n is row
  `idx n` of x, the word read as a signed integer and clamped into [0, R − 1]. The accumulating row scatter adds row n
  of an N × C table of updates to row `idx n` of the operand, the word read signed and NOT clamped: a row whose index
  is outside the operand is dropped. On the extended reals the scatter's result at (r, c) is the operand there plus the
  sum, over the rows n whose index is r, of the update at (n, c); no order of accumulation is left in it. Composed: the
  scatter of weighted gathered rows at (r, c) is a sum over n of weight · x (clamped source row of n, c) — column c of
  the result only ever meets column c of x.
-/
import Idealize.ShloMosaic.PureOps.Ideal
import Idealize.ShloMosaic.Lib.ValueIdx
import Idealize.ShloMosaic.Lib.Pipeline.Value

noncomputable section

open scoped BigOperators

namespace Cert.LibRowGatherScatter

open Idealize.ShloMosaic Idealize.ShloMosaic.ValueIdx

/-- The row an index word names for a gather out of R rows: read signed, clamped into [0, R − 1]. -/
def clampRow (R : Nat) (hR : 0 < R) {w : Nat} (b : BitVec w) : Fin R := ⟨min b.toInt.toNat (R - 1), by omega⟩

section Gather

variable {α : Type} {R N C : Nat}

/-- The dimension numbers of a row gather, for an operand [R, C], start indices [N, 1] and a result [N, C]. -/
abbrev rowGatherDims (R N C : Nat)
    (wf : GatherDims.WF ⟨2, ![R, C]⟩ ⟨2, ![N, 1]⟩ ⟨2, ![N, C]⟩ [1] [0] [] [0] [] 1 ![1, C]) :
    GatherDims ⟨2, ![R, C]⟩ ⟨2, ![N, 1]⟩ ⟨2, ![N, C]⟩ where
  offsetDims := [1]
  collapsedSliceDims := [0]
  operandBatchingDims := []
  startIndicesBatchingDims := []
  startIndexMap := [0]
  indexVectorDim := 1
  sliceSizes := ![1, C]
  wf := wf

theorem gather_rowDims_apply (hR : 0 < R)
    (wf : GatherDims.WF ⟨2, ![R, C]⟩ ⟨2, ![N, 1]⟩ ⟨2, ![N, C]⟩ [1] [0] [] [0] [] 1 ![1, C]) {w : Nat}
    (x : (⟨2, ![R, C]⟩ : Shape).Idx → α) (idx : IVec ⟨2, ![N, 1]⟩ w) (n : Fin N) (c : Fin C) :
    Host.gather (rowGatherDims R N C wf) x idx (ix2 n c) = x (ix2 (clampRow R hR (idx (ix2 n (0 : Fin 1)))) c) := by
  unfold Host.gather
  congr 1
  funext a
  refine Fin.ext ?_
  have e0 : ((rowGatherDims R N C wf).operandIdx (ix2 n c) idx 0).val = min (idx (ix2 n (0 : Fin 1))).toInt.toNat (R - 1) := by
    show (rowGatherDims R N C wf).start (ix2 n c) idx 0 + (rowGatherDims R N C wf).batchCoord (ix2 n c) 0
      + (rowGatherDims R N C wf).offCoord (ix2 n c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims R N C wf).startIndexMap from List.mem_singleton.mpr rfl)]
    have hsi : (rowGatherDims R N C wf).siIdx (ix2 n c) ⟨List.idxOf (0 : Fin 2) (rowGatherDims R N C wf).startIndexMap,
        List.idxOf_lt_length_iff.2 (List.mem_singleton.mpr rfl)⟩ = ix2 n (0 : Fin 1) := by
      funext b; refine Fin.ext ?_
      match b with
      | ⟨0, _⟩ => rfl
      | ⟨1, _⟩ => rfl
    rw [hsi]
    rfl
  have e1 : ((rowGatherDims R N C wf).operandIdx (ix2 n c) idx 1).val = c.val := by
    show (rowGatherDims R N C wf).start (ix2 n c) idx 1 + (rowGatherDims R N C wf).batchCoord (ix2 n c) 1
      + (rowGatherDims R N C wf).offCoord (ix2 n c) 1 = _
    rw [GatherDims.batchCoord_eq_zero _ _ _ List.not_mem_nil]
    have hs : (rowGatherDims R N C wf).start (ix2 n c) idx 1 = 0 := by
      unfold GatherDims.start
      rw [dif_neg (show (1 : Fin 2) ∉ (rowGatherDims R N C wf).startIndexMap from
        (by decide : (1 : Fin 2) ∉ ([0] : List (Fin 2))))]
    rw [hs]
    simp only [Nat.add_zero, Nat.zero_add]
    unfold GatherDims.offCoord
    rw [dif_pos (show (1 : Fin 2) ∈ (rowGatherDims R N C wf).sKept from
      List.mem_filter.2 ⟨List.mem_finRange _, (by decide : decide ((1 : Fin 2) ∉ (([0] : List (Fin 2)) ++ [])) = true)⟩)]
    rfl
  match a with
  | ⟨0, _⟩ => exact e0
  | ⟨1, _⟩ => exact e1

/-- THE ROW GATHER READ AT (n, c): x at (the clamped row of word n, c). -/
theorem gather_rows (g : GatherDims ⟨2, ![R, C]⟩ ⟨2, ![N, 1]⟩ ⟨2, ![N, C]⟩)
    (h1 : g.offsetDims = [1]) (h2 : g.collapsedSliceDims = [0]) (h3 : g.operandBatchingDims = [])
    (h4 : g.startIndicesBatchingDims = []) (h5 : g.startIndexMap = [0]) (h6 : g.indexVectorDim = 1)
    (h7 : g.sliceSizes = ![1, C]) (hR : 0 < R) {w : Nat}
    (x : (⟨2, ![R, C]⟩ : Shape).Idx → α) (idx : IVec ⟨2, ![N, 1]⟩ w) (n : Fin N) (c : Fin C) :
    Host.gather g x idx (ix2 n c) = x (ix2 (clampRow R hR (idx (ix2 n (0 : Fin 1)))) c) := by
  obtain ⟨od, cd, ob, sb, sm, iv, ss, wf⟩ := g
  simp only at h1 h2 h3 h4 h5 h6 h7
  subst h1 h2 h3 h4 h5 h6 h7
  exact gather_rowDims_apply hR wf x idx n c

end Gather

section Scatter

variable {R N C : Nat} (d : ScatterDims ⟨2, ![R, C]⟩ ⟨2, ![N, 1]⟩ ⟨2, ![N, C]⟩)

/-- Where update element (n, c') lands: at (r, c) exactly when row n's index word, read signed, is r and c' = c. -/
theorem resultIdx?_rows (h1 : d.updateWindowDims = [1]) (h2 : d.insertedWindowDims = [0])
    (h3 : d.scatterDimsToOperandDims = [0]) (h4 : d.indexVectorDim = 1) {w : Nat}
    (idx : IVec ⟨2, ![N, 1]⟩ w) (n : Fin N) (c' : Fin C) (r : Fin R) (c : Fin C) :
    d.resultIdx? (ix2 n c') idx = some (ix2 r c) ↔ (idx (ix2 n (0 : Fin 1))).toInt = (r.val : ℤ) ∧ c' = c := by
  obtain ⟨uw, iw, sd, iv, wf⟩ := d
  simp only at h1 h2 h3 h4
  subst h1 h2 h3 h4
  have hs0 : ScatterDims.start ⟨[1], [0], [0], 1, wf⟩ (ix2 n c') idx 0 = (idx (ix2 n (0 : Fin 1))).toInt := by
    unfold ScatterDims.start
    rw [dif_pos (List.mem_singleton.mpr rfl)]
    congr 2
    funext b
    refine Fin.ext ?_
    match b with
    | ⟨0, _⟩ => rfl
    | ⟨1, _⟩ => rfl
  have hs1 : ScatterDims.start ⟨[1], [0], [0], 1, wf⟩ (ix2 n c') idx 1 = 0 := by
    unfold ScatterDims.start
    rw [dif_neg (show (1 : Fin 2) ∉ ([0] : List (Fin 2)) by decide)]
  have hw0 : ScatterDims.window ⟨[1], [0], [0], 1, wf⟩ (ix2 n c') 0 = 0 := by
    unfold ScatterDims.window
    rw [dif_neg (show (0 : Fin 2) ∉ (⟨2, ![R, C]⟩ : Shape).kept [0] from
      fun h => (of_decide_eq_true (List.mem_filter.1 h).2) (List.mem_singleton.mpr rfl))]
  have hw1 : ScatterDims.window ⟨[1], [0], [0], 1, wf⟩ (ix2 n c') 1 = c'.val := by
    unfold ScatterDims.window
    rw [dif_pos (show (1 : Fin 2) ∈ (⟨2, ![R, C]⟩ : Shape).kept [0] from
      List.mem_filter.2 ⟨List.mem_finRange _, (by decide : decide ((1 : Fin 2) ∉ ([0] : List (Fin 2))) = true)⟩)]
    rfl
  unfold ScatterDims.resultIdx?
  simp only [Fin.forall_fin_two, hs0, hs1, hw0, hw1]
  have hc0 : (ix2 r c (0 : Fin 2)) = r := rfl
  have hc1 : (ix2 r c (1 : Fin 2)) = c := rfl
  have hz0 : ((![R, C] : Fin 2 → ℕ) 0) = R := rfl
  have hz1 : ((![R, C] : Fin 2 → ℕ) 1) = C := rfl
  have hr := r.isLt
  have hc := c.isLt
  have hc' := c'.isLt
  by_cases hcond : ((0 ≤ (idx (ix2 n (0 : Fin 1))).toInt + ((0 : ℕ) : ℤ) ∧ (idx (ix2 n (0 : Fin 1))).toInt + ((0 : ℕ) : ℤ) < (((![R, C] : Fin 2 → ℕ) 0 : ℕ) : ℤ)) ∧
            0 ≤ (0 : ℤ) + ((c'.val : ℕ) : ℤ) ∧ (0 : ℤ) + ((c'.val : ℕ) : ℤ) < (((![R, C] : Fin 2 → ℕ) 1 : ℕ) : ℤ))
  · rw [dif_pos hcond]
    simp only [Option.some.injEq, funext_iff, Fin.forall_fin_two, Fin.ext_iff, hs0, hs1, hw0, hw1, hc0, hc1]
    rw [hz0, hz1] at hcond
    constructor
    · rintro ⟨h0, h1⟩
      exact ⟨by omega, by omega⟩
    · rintro ⟨h0, h1⟩
      exact ⟨by omega, by omega⟩
  · rw [dif_neg hcond]
    rw [hz0, hz1] at hcond
    constructor
    · intro h; exact absurd h (by simp)
    · rintro ⟨h0, h1⟩
      exact absurd ⟨⟨by omega, by omega⟩, by omega, by omega⟩ hcond

/-- THE ROW SCATTER READ AT (r, c): the operand there plus the updates (n, c) of the rows n whose index is r. -/
theorem scatterAdd_rows (h1 : d.updateWindowDims = [1]) (h2 : d.insertedWindowDims = [0])
    (h3 : d.scatterDimsToOperandDims = [0]) (h4 : d.indexVectorDim = 1) {w : Nat}
    (x : FVec Ideal ⟨2, ![R, C]⟩ .f32) (idx : IVec ⟨2, ![N, 1]⟩ w)
    (upd : FVec Ideal ⟨2, ![N, C]⟩ .f32) (r : Fin R) (c : Fin C) :
    Host.scatterAdd (F := Ideal) d x idx upd (ix2 r c)
      = x (ix2 r c) + ∑ n : Fin N, (if (idx (ix2 n (0 : Fin 1))).toInt = (r.val : ℤ) then upd (ix2 n c) else 0) := by
  simp only [Host.scatterAdd, Ideal.hostScatterAdd_def, Ideal.hostScatterAdd]
  refine congrArg (x (ix2 r c) + ·) ?_
  rw [Finset.sum_filter, sum_idx2]
  refine Finset.sum_congr rfl fun n _ => ?_
  simp only [resultIdx?_rows d h1 h2 h3 h4]
  by_cases hA : (idx (ix2 n (0 : Fin 1))).toInt = (r.val : ℤ)
  · simp only [hA, true_and, if_true]
    rw [Finset.sum_ite_eq' Finset.univ c (fun c' => upd (ix2 n c')), if_pos (Finset.mem_univ c)]
  · simp only [hA, false_and, if_false, Finset.sum_const_zero]

end Scatter

section Propagate

variable {R N C : Nat} (d : ScatterDims ⟨2, ![R, C]⟩ ⟨2, ![N, 1]⟩ ⟨2, ![N, C]⟩)
  (g : GatherDims ⟨2, ![R, C]⟩ ⟨2, ![N, 1]⟩ ⟨2, ![N, C]⟩)

/-- The scatter of weighted gathered rows at (r, c): the operand there plus, over the rows n sent to r, weight (n, c)
    times x at (the clamped source row of n, c). -/
theorem scatter_mul_gather (h1 : d.updateWindowDims = [1]) (h2 : d.insertedWindowDims = [0])
    (h3 : d.scatterDimsToOperandDims = [0]) (h4 : d.indexVectorDim = 1)
    (k1 : g.offsetDims = [1]) (k2 : g.collapsedSliceDims = [0]) (k3 : g.operandBatchingDims = [])
    (k4 : g.startIndicesBatchingDims = []) (k5 : g.startIndexMap = [0]) (k6 : g.indexVectorDim = 1)
    (k7 : g.sliceSizes = ![1, C]) (hR : 0 < R) {w w' : Nat}
    (z x : FVec Ideal ⟨2, ![R, C]⟩ .f32) (wt : FVec Ideal ⟨2, ![N, C]⟩ .f32)
    (idxD : IVec ⟨2, ![N, 1]⟩ w) (idxS : IVec ⟨2, ![N, 1]⟩ w') (r : Fin R) (c : Fin C) :
    Host.scatterAdd (F := Ideal) d z idxD (mulf wt (Host.gather g x idxS)) (ix2 r c)
      = z (ix2 r c) + ∑ n : Fin N, (if (idxD (ix2 n (0 : Fin 1))).toInt = (r.val : ℤ)
          then wt (ix2 n c) * x (ix2 (clampRow R hR (idxS (ix2 n (0 : Fin 1)))) c) else 0) := by
  rw [scatterAdd_rows d h1 h2 h3 h4]
  refine congrArg (z (ix2 r c) + ·) (Finset.sum_congr rfl fun n _ => ?_)
  rw [mulf_apply, gather_rows g k1 k2 k3 k4 k5 k6 k7 hR]

end Propagate

section Widths

variable {R N C C' : Nat}

/-- A per-row number broadcast across C columns, read at (n, c): the number of row n. -/
theorem bcast_col_apply {α : Type} (hN : N ≠ 1) (v : (⟨1, ![N]⟩ : Shape).Idx → α)
    (h3 : (⟨1, ![N]⟩ : Shape).BroadcastsInDim ⟨2, ![N, 1]⟩ ![0])
    (h4 : (⟨2, ![N, 1]⟩ : Shape).BroadcastsInDim ⟨2, ![N, C]⟩ ![0, 1]) (n : Fin N) (c : Fin C) :
    broadcastInDim ⟨2, ![N, C]⟩ ![0, 1] h4 (broadcastInDim ⟨2, ![N, 1]⟩ ![0] h3 v) (ix2 n c) = v (ix1 n) := by
  refine (broadcastInDim_apply _ h4 _ (ix2 n c) (ix2 n (0 : Fin 1)) ?_).trans ?_
  · intro a
    match a with
    | ⟨0, _⟩ => show n.val = if N = 1 then 0 else n.val; rw [if_neg hN]
    | ⟨1, _⟩ => show (0 : Fin 1).val = if (1 : Nat) = 1 then 0 else c.val; rw [if_pos rfl]; rfl
  refine broadcastInDim_apply _ h3 v (ix2 n (0 : Fin 1)) (ix1 n) ?_
  intro a
  match a with
  | ⟨0, _⟩ => show n.val = if N = 1 then 0 else n.val; rw [if_neg hN]

/-- TWO WIDTHS, ONE COLUMN EACH: the scatter of weighted gathered rows over tables of C columns, read at column c,
    and the same over tables of C' columns, read at column c', agree when the operands agree at those two columns —
    the index lists being the same. A propagation of a wide table is, column by column, the propagation of its
    columns. -/
theorem scatter_mul_gather_congr
    (d : ScatterDims ⟨2, ![R, C]⟩ ⟨2, ![N, 1]⟩ ⟨2, ![N, C]⟩) (g : GatherDims ⟨2, ![R, C]⟩ ⟨2, ![N, 1]⟩ ⟨2, ![N, C]⟩)
    (d' : ScatterDims ⟨2, ![R, C']⟩ ⟨2, ![N, 1]⟩ ⟨2, ![N, C']⟩) (g' : GatherDims ⟨2, ![R, C']⟩ ⟨2, ![N, 1]⟩ ⟨2, ![N, C']⟩)
    (h1 : d.updateWindowDims = [1]) (h2 : d.insertedWindowDims = [0])
    (h3 : d.scatterDimsToOperandDims = [0]) (h4 : d.indexVectorDim = 1)
    (k1 : g.offsetDims = [1]) (k2 : g.collapsedSliceDims = [0]) (k3 : g.operandBatchingDims = [])
    (k4 : g.startIndicesBatchingDims = []) (k5 : g.startIndexMap = [0]) (k6 : g.indexVectorDim = 1)
    (k7 : g.sliceSizes = ![1, C])
    (h1' : d'.updateWindowDims = [1]) (h2' : d'.insertedWindowDims = [0])
    (h3' : d'.scatterDimsToOperandDims = [0]) (h4' : d'.indexVectorDim = 1)
    (k1' : g'.offsetDims = [1]) (k2' : g'.collapsedSliceDims = [0]) (k3' : g'.operandBatchingDims = [])
    (k4' : g'.startIndicesBatchingDims = []) (k5' : g'.startIndexMap = [0]) (k6' : g'.indexVectorDim = 1)
    (k7' : g'.sliceSizes = ![1, C']) (hR : 0 < R) {w w' : Nat}
    (z x : FVec Ideal ⟨2, ![R, C]⟩ .f32) (wt : FVec Ideal ⟨2, ![N, C]⟩ .f32)
    (z' x' : FVec Ideal ⟨2, ![R, C']⟩ .f32) (wt' : FVec Ideal ⟨2, ![N, C']⟩ .f32)
    (idxD : IVec ⟨2, ![N, 1]⟩ w) (idxS : IVec ⟨2, ![N, 1]⟩ w') (r : Fin R) (c : Fin C) (c' : Fin C')
    (hz : z (ix2 r c) = z' (ix2 r c')) (hw : ∀ n : Fin N, wt (ix2 n c) = wt' (ix2 n c'))
    (hx : ∀ ρ : Fin R, x (ix2 ρ c) = x' (ix2 ρ c')) :
    Host.scatterAdd (F := Ideal) d z idxD (mulf wt (Host.gather g x idxS)) (ix2 r c)
      = Host.scatterAdd (F := Ideal) d' z' idxD (mulf wt' (Host.gather g' x' idxS)) (ix2 r c') := by
  rw [scatter_mul_gather d g h1 h2 h3 h4 k1 k2 k3 k4 k5 k6 k7 hR,
    scatter_mul_gather d' g' h1' h2' h3' h4' k1' k2' k3' k4' k5' k6' k7' hR, hz]
  refine congrArg (z' (ix2 r c') + ·) (Finset.sum_congr rfl fun n _ => ?_)
  rw [hw n, hx]

/-- The same under a negation: the scaled Laplacian's sign. -/
theorem neg_scatter_mul_gather_congr
    (d : ScatterDims ⟨2, ![R, C]⟩ ⟨2, ![N, 1]⟩ ⟨2, ![N, C]⟩) (g : GatherDims ⟨2, ![R, C]⟩ ⟨2, ![N, 1]⟩ ⟨2, ![N, C]⟩)
    (d' : ScatterDims ⟨2, ![R, C']⟩ ⟨2, ![N, 1]⟩ ⟨2, ![N, C']⟩) (g' : GatherDims ⟨2, ![R, C']⟩ ⟨2, ![N, 1]⟩ ⟨2, ![N, C']⟩)
    (h1 : d.updateWindowDims = [1]) (h2 : d.insertedWindowDims = [0])
    (h3 : d.scatterDimsToOperandDims = [0]) (h4 : d.indexVectorDim = 1)
    (k1 : g.offsetDims = [1]) (k2 : g.collapsedSliceDims = [0]) (k3 : g.operandBatchingDims = [])
    (k4 : g.startIndicesBatchingDims = []) (k5 : g.startIndexMap = [0]) (k6 : g.indexVectorDim = 1)
    (k7 : g.sliceSizes = ![1, C])
    (h1' : d'.updateWindowDims = [1]) (h2' : d'.insertedWindowDims = [0])
    (h3' : d'.scatterDimsToOperandDims = [0]) (h4' : d'.indexVectorDim = 1)
    (k1' : g'.offsetDims = [1]) (k2' : g'.collapsedSliceDims = [0]) (k3' : g'.operandBatchingDims = [])
    (k4' : g'.startIndicesBatchingDims = []) (k5' : g'.startIndexMap = [0]) (k6' : g'.indexVectorDim = 1)
    (k7' : g'.sliceSizes = ![1, C']) (hR : 0 < R) {w w' : Nat}
    (z x : FVec Ideal ⟨2, ![R, C]⟩ .f32) (wt : FVec Ideal ⟨2, ![N, C]⟩ .f32)
    (z' x' : FVec Ideal ⟨2, ![R, C']⟩ .f32) (wt' : FVec Ideal ⟨2, ![N, C']⟩ .f32)
    (idxD : IVec ⟨2, ![N, 1]⟩ w) (idxS : IVec ⟨2, ![N, 1]⟩ w') (r : Fin R) (c : Fin C) (c' : Fin C')
    (hz : z (ix2 r c) = z' (ix2 r c')) (hw : ∀ n : Fin N, wt (ix2 n c) = wt' (ix2 n c'))
    (hx : ∀ ρ : Fin R, x (ix2 ρ c) = x' (ix2 ρ c')) :
    Host.negf (F := Ideal) (Host.scatterAdd (F := Ideal) d z idxD (mulf wt (Host.gather g x idxS))) (ix2 r c)
      = Host.negf (F := Ideal) (Host.scatterAdd (F := Ideal) d' z' idxD (mulf wt' (Host.gather g' x' idxS))) (ix2 r c') := by
  show -(Host.scatterAdd (F := Ideal) d z idxD (mulf wt (Host.gather g x idxS)) (ix2 r c))
    = -(Host.scatterAdd (F := Ideal) d' z' idxD (mulf wt' (Host.gather g' x' idxS)) (ix2 r c'))
  rw [scatter_mul_gather_congr d g d' g' h1 h2 h3 h4 k1 k2 k3 k4 k5 k6 k7 h1' h2' h3' h4' k1' k2' k3' k4' k5' k6' k7' hR
    z x wt z' x' wt' idxD idxS r c c' hz hw hx]

end Widths

end Cert.LibRowGatherScatter

end
-- ==== Proof.LibSegmentSum.lean ====
/-
  A segment sum read at one element, over any sizes.

  R segments; N index words, one per row; N values. The accumulating scatter that `jax.ops.segment_sum` of a vector
  lowers to adds value n to element `idx n` of the operand, the word read as a signed integer and NOT clamped: a row
  whose index is outside the operand is dropped. On the extended reals its result at r is the operand there plus the
  sum, over the rows n whose index is r, of value n; no order of accumulation is left in it. (The same for a table of
  rows, segment_sum of a matrix, is the row scatter of LibRowGatherScatter.)
-/
import Idealize.ShloMosaic.PureOps.Ideal
import Idealize.ShloMosaic.Lib.ValueIdx

noncomputable section

open scoped BigOperators

namespace Cert.LibSegmentSum

open Idealize.ShloMosaic Idealize.ShloMosaic.ValueIdx

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

section Scatter

variable {R N : Nat} (d : ScatterDims ⟨1, ![R]⟩ ⟨2, ![N, 1]⟩ ⟨1, ![N]⟩)

/-- Where value n lands: at r exactly when row n's index word, read signed, is r. -/
theorem resultIdx?_seg (h1 : d.updateWindowDims = []) (h2 : d.insertedWindowDims = [0])
    (h3 : d.scatterDimsToOperandDims = [0]) (h4 : d.indexVectorDim = 1) {w : Nat}
    (idx : IVec ⟨2, ![N, 1]⟩ w) (n : Fin N) (r : Fin R) :
    d.resultIdx? (ix1 n) idx = some (ix1 r) ↔ (idx (ix2 n (0 : Fin 1))).toInt = (r.val : ℤ) := by
  obtain ⟨uw, iw, sd, iv, wf⟩ := d
  simp only at h1 h2 h3 h4
  subst h1 h2 h3 h4
  have hs0 : ScatterDims.start ⟨[], [0], [0], 1, wf⟩ (ix1 n) idx 0 = (idx (ix2 n (0 : Fin 1))).toInt := by
    unfold ScatterDims.start
    rw [dif_pos (List.mem_singleton.mpr rfl)]
    congr 2
    funext b
    refine Fin.ext ?_
    match b with
    | ⟨0, _⟩ => rfl
    | ⟨1, _⟩ => rfl
  have hw0 : ScatterDims.window ⟨[], [0], [0], 1, wf⟩ (ix1 n) 0 = 0 := by
    unfold ScatterDims.window
    rw [dif_neg (show (0 : Fin 1) ∉ (⟨1, ![R]⟩ : Shape).kept [0] from
      fun h => (of_decide_eq_true (List.mem_filter.1 h).2) (List.mem_singleton.mpr rfl))]
  unfold ScatterDims.resultIdx?
  simp only [Fin.forall_fin_one, hs0, hw0]
  have hc0 : (ix1 r (0 : Fin 1)) = r := rfl
  have hz0 : ((![R] : Fin 1 → ℕ) 0) = R := rfl
  have hr := r.isLt
  by_cases hcond : (0 ≤ (idx (ix2 n (0 : Fin 1))).toInt + ((0 : ℕ) : ℤ) ∧ (idx (ix2 n (0 : Fin 1))).toInt + ((0 : ℕ) : ℤ) < (((![R] : Fin 1 → ℕ) 0 : ℕ) : ℤ))
  · rw [dif_pos hcond]
    simp only [Option.some.injEq, funext_iff, Fin.forall_fin_one, Fin.ext_iff, hs0, hw0, hc0]
    rw [hz0] at hcond
    constructor
    · intro h0; omega
    · intro h0; omega
  · rw [dif_neg hcond]
    rw [hz0] at hcond
    constructor
    · intro h; exact absurd h (by simp)
    · intro h0; exact absurd ⟨by omega, by omega⟩ hcond

/-- THE SEGMENT SUM READ AT r: the operand there plus the values of the rows whose index is r. -/
theorem scatterAdd_seg (h1 : d.updateWindowDims = []) (h2 : d.insertedWindowDims = [0])
    (h3 : d.scatterDimsToOperandDims = [0]) (h4 : d.indexVectorDim = 1) {w : Nat}
    (x : FVec Ideal ⟨1, ![R]⟩ .f32) (idx : IVec ⟨2, ![N, 1]⟩ w)
    (upd : FVec Ideal ⟨1, ![N]⟩ .f32) (r : Fin R) :
    Host.scatterAdd (F := Ideal) d x idx upd (ix1 r)
      = x (ix1 r) + ∑ n : Fin N, (if (idx (ix2 n (0 : Fin 1))).toInt = (r.val : ℤ) then upd (ix1 n) else 0) := by
  simp only [Host.scatterAdd, Ideal.hostScatterAdd_def, Ideal.hostScatterAdd]
  refine congrArg (x (ix1 r) + ·) ?_
  rw [Finset.sum_filter, sum_idx1]
  refine Finset.sum_congr rfl fun n _ => ?_
  simp only [resultIdx?_seg d h1 h2 h3 h4]

end Scatter

end Cert.LibSegmentSum

end
-- ==== Proof.LibSelfLoops.lean ====
/-
  Self-loops appended to a list of edges, read against the list without them; and a vector gathered by index words.

  A graph on R nodes is given as n edges, each a pair of index words (a source and a destination) and a weight. One
  way to give every node a loop onto itself is to lengthen the three lists by R entries, entry n + j being the loop of
  node j: its two index words are the word of j and its weight is one. Whatever is then summed over the edges sent
  to a node r is the sum over the first n entries sent to r plus the one loop of r — a sum over n + R terms cut after
  the n-th, and among the last R terms only the r-th survives. Nothing but the commutative monoid is used.

  The rest is how such lists read at one entry, over any sizes: the two-piece concatenation along the one axis of a
  vector (left piece below the cut, right piece above it), the counting vector 0, 1, 2, …, the words of small numbers
  (a number below 2^31 read signed is itself, is not negative, so the index normalisation "add R when negative"
  leaves it alone, and clamped into [0, R − 1] it is still itself when below R), a vector laid as a column of words,
  and a vector gathered by a column of index words (the rank-one gather: element n of the result is the operand at
  the clamped word n).
-/
import Idealize.ShloMosaic.PureOps.Ideal
import Idealize.ShloMosaic.Lib.ValueIdx
import Idealize.ShloMosaic.Lib.Pipeline.Value
import proofs.«149535_j85031762526673_2_alg».proof.Proof.LibRowGatherScatter

noncomputable section

open scoped BigOperators

namespace Cert.LibSelfLoops

open Idealize.ShloMosaic Idealize.ShloMosaic.ValueIdx Cert.LibRowGatherScatter

/-! ## Sums -/

/-- A sum over a + b terms is the sum over the first a plus the sum over the last b. -/
theorem sum_append {M : Type*} [AddCommMonoid M] {a b t : Nat} (h : a + b = t) (f : Fin t → M) :
    ∑ i, f i = ∑ i : Fin a, f ⟨i.val, by have := i.isLt; omega⟩ + ∑ j : Fin b, f ⟨a + j.val, by have := j.isLt; omega⟩ := by
  subst h
  rw [Fin.sum_univ_add]
  rfl

/-- Of the loops, one per node, only node r's is sent to r. -/
theorem sum_loops {M : Type*} [AddCommMonoid M] {R : Nat} (r : Fin R) (g : Fin R → M) :
    ∑ j : Fin R, (if (j.val : ℤ) = (r.val : ℤ) then g j else 0) = g r := by
  rw [Finset.sum_eq_single r]
  · rw [if_pos rfl]
  · intro j _ hj
    rw [if_neg]
    intro h
    exact hj (Fin.ext (by exact_mod_cast h))
  · intro h
    exact absurd (Finset.mem_univ r) h

/-- THE EDGES WITH THE LOOPS APPENDED, SUMMED AT r: when the first n of the n + R entries are the edges (same
    destination, same term) and entry n + j is node j's loop (destination j, term g j), the terms sent to r sum to
    the edges' terms sent to r plus g r. -/
theorem sum_edges_loops {M : Type*} [AddCommMonoid M] {n R t : Nat} (h : n + R = t) (r : Fin R)
    (dst' : Fin t → ℤ) (f' : Fin t → M) (dst : Fin n → ℤ) (f : Fin n → M) (g : Fin R → M)
    (hd : ∀ e : Fin n, dst' ⟨e.val, by have := e.isLt; omega⟩ = dst e)
    (hf : ∀ e : Fin n, f' ⟨e.val, by have := e.isLt; omega⟩ = f e)
    (hdl : ∀ j : Fin R, dst' ⟨n + j.val, by have := j.isLt; omega⟩ = (j.val : ℤ))
    (hfl : ∀ j : Fin R, f' ⟨n + j.val, by have := j.isLt; omega⟩ = g j) :
    ∑ e : Fin t, (if dst' e = (r.val : ℤ) then f' e else 0)
      = ∑ e : Fin n, (if dst e = (r.val : ℤ) then f e else 0) + g r := by
  rw [sum_append h]
  refine congrArg₂ (· + ·) (Finset.sum_congr rfl fun e _ => ?_) ?_
  · rw [hd e, hf e]
  · rw [← sum_loops r g]
    refine Finset.sum_congr rfl fun j _ => ?_
    rw [hdl j, hfl j]

/-! ## The words of small numbers -/

/-- A number below 2^31, as a 32-bit word read signed, is itself. -/
theorem toInt_word {j : Nat} (h : j < 2 ^ 31) : (BitVec.ofNat 32 j).toInt = (j : ℤ) := by
  rw [BitVec.toInt_eq_toNat_cond, BitVec.toNat_ofNat, Nat.mod_eq_of_lt (by omega)]
  rw [if_pos (by omega)]

/-- The index normalisation — add k when the word is negative — leaves a word that is not negative alone. -/
theorem wrap_nonneg (b k : BitVec 32) (h : 0 ≤ b.toInt) :
    Scalar.select (IntOp.cmpi .slt b 0#32) (IntOp.addi b k) b = b := by
  have hs : b.slt 0#32 = false := by
    rw [BitVec.slt]
    simp only [BitVec.toInt_zero, decide_eq_false_iff_not, not_lt]
    exact h
  simp only [Scalar.select, IntOp.cmpi, hs, BitVec.ofBool_false]
  rw [if_neg (by decide)]

/-- So it leaves the word of a number below 2^31 alone. -/
theorem wrap_word {j : Nat} (h : j < 2 ^ 31) (k : BitVec 32) :
    Scalar.select (IntOp.cmpi .slt (BitVec.ofNat 32 j) 0#32) (IntOp.addi (BitVec.ofNat 32 j) k) (BitVec.ofNat 32 j)
      = BitVec.ofNat 32 j :=
  wrap_nonneg _ k (by rw [toInt_word h]; exact Int.natCast_nonneg j)

/-- The index normalisation of a word: k added when the word, read signed, is negative. -/
def wrapWord (k b : BitVec 32) : BitVec 32 := Scalar.select (IntOp.cmpi .slt b 0#32) (IntOp.addi b k) b

/-- It leaves the word of a number below 2^31 alone. -/
theorem wrapWord_word {j : Nat} (h : j < 2 ^ 31) (k : BitVec 32) : wrapWord k (BitVec.ofNat 32 j) = BitVec.ofNat 32 j :=
  wrap_word h k

/-- The normalisation spelt on a whole array of words — compare with a splat zero, add a splat k, select — read at
    one entry: the normalised word of the entry. -/
theorem wrap_apply {s : Shape} (k : BitVec 32) (h0 hk : (⟨0, ![]⟩ : Shape).BroadcastsInDim s ![]) (v : IVec s 32)
    (i : s.Idx) :
    select (cmpi .slt v (broadcastInDim s ![] h0 (constantI ⟨0, ![]⟩ 32 0#32)))
      (addi v (broadcastInDim s ![] hk (constantI ⟨0, ![]⟩ 32 k))) v i = wrapWord k (v i) := by
  show Scalar.select (IntOp.cmpi .slt (v i) (broadcastInDim s ![] h0 (constantI ⟨0, ![]⟩ 32 0#32) i))
      (IntOp.addi (v i) (broadcastInDim s ![] hk (constantI ⟨0, ![]⟩ 32 k) i)) (v i) = _
  have e0 : broadcastInDim s ![] h0 (constantI ⟨0, ![]⟩ 32 0#32) i = 0#32 :=
    broadcastInDim_apply _ h0 _ i (fun a => a.elim0) (fun a => a.elim0)
  have ek : broadcastInDim s ![] hk (constantI ⟨0, ![]⟩ 32 k) i = k :=
    broadcastInDim_apply _ hk _ i (fun a => a.elim0) (fun a => a.elim0)
  rw [e0, ek]
  rfl

/-- The word of node j, clamped into the R rows, is row j. -/
theorem clampRow_word {R : Nat} (hR : 0 < R) (hR31 : R ≤ 2 ^ 31) (j : Fin R) :
    clampRow R hR (BitVec.ofNat 32 j.val) = j := by
  refine Fin.ext ?_
  show min (BitVec.ofNat 32 j.val).toInt.toNat (R - 1) = j.val
  rw [toInt_word (by have := j.isLt; omega)]
  have := j.isLt
  rw [Int.toNat_natCast]
  omega

/-! ## Vectors read at an entry -/

/-- The counting vector at entry j is the word of j. -/
theorem iota_apply {N : Nat} (j : Fin N) : iotaInDim ⟨1, ![N]⟩ 32 0 (ix1 j) = BitVec.ofNat 32 j.val := rfl

/-- A vector of N entries laid as a column [N, 1], read at (n, 0): entry n. -/
theorem column_apply {α : Type} {N : Nat} (hN : N ≠ 1) (v : (⟨1, ![N]⟩ : Shape).Idx → α)
    (h : (⟨1, ![N]⟩ : Shape).BroadcastsInDim ⟨2, ![N, 1]⟩ ![0]) (n : Fin N) :
    broadcastInDim ⟨2, ![N, 1]⟩ ![0] h v (ix2 n (0 : Fin 1)) = v (ix1 n) := by
  refine broadcastInDim_apply _ h v (ix2 n (0 : Fin 1)) (ix1 n) ?_
  intro a
  match a with
  | ⟨0, _⟩ => show n.val = if N = 1 then 0 else n.val; rw [if_neg hN]

/-- A join of a vector of a entries and one of b entries, read below the cut: the first vector there. -/
theorem join_left {α : Type} {a b t : Nat} (h : Shape.Concatenates [⟨1, ![a]⟩, ⟨1, ![b]⟩] ⟨1, ![t]⟩ 0)
    (u : (⟨1, ![a]⟩ : Shape).Idx → α) (v : (⟨1, ![b]⟩ : Shape).Idx → α) (i : Fin a) (hi : i.val < t) :
    concatenate ⟨1, ![t]⟩ 0 [⟨⟨1, ![a]⟩, u⟩, ⟨⟨1, ![b]⟩, v⟩] h (ix1 ⟨i.val, hi⟩) = u (ix1 i) := by
  refine concatenate_pair_apply_left 0 u v h (ix1 ⟨i.val, hi⟩) rfl (ix1 i) ?_
  intro c
  match c with
  | ⟨0, _⟩ => rfl

/-- The same join read above the cut, at a + j: the second vector at j. -/
theorem join_right {α : Type} {a b t : Nat} (h : Shape.Concatenates [⟨1, ![a]⟩, ⟨1, ![b]⟩] ⟨1, ![t]⟩ 0)
    (u : (⟨1, ![a]⟩ : Shape).Idx → α) (v : (⟨1, ![b]⟩ : Shape).Idx → α) (j : Fin b) (hj : a + j.val < t) :
    concatenate ⟨1, ![t]⟩ 0 [⟨⟨1, ![a]⟩, u⟩, ⟨⟨1, ![b]⟩, v⟩] h (ix1 ⟨a + j.val, hj⟩) = v (ix1 j) := by
  refine concatenate_pair_apply_right 0 u v h (ix1 ⟨a + j.val, hj⟩) rfl rfl (ix1 j) ?_ ?_
  · intro c hc
    match c with
    | ⟨0, _⟩ => exact absurd rfl hc
  · show j.val + a = a + j.val
    omega

/-! ## A vector gathered by a column of index words -/

section Gather

variable {α : Type} {R N : Nat}

/-- The dimension numbers of the gather of a vector [R] by start indices [N, 1] into a vector [N]. -/
abbrev vecGatherDims (R N : Nat)
    (wf : GatherDims.WF ⟨1, ![R]⟩ ⟨2, ![N, 1]⟩ ⟨1, ![N]⟩ [] [0] [] [0] [] 1 ![1]) :
    GatherDims ⟨1, ![R]⟩ ⟨2, ![N, 1]⟩ ⟨1, ![N]⟩ where
  offsetDims := []
  collapsedSliceDims := [0]
  operandBatchingDims := []
  startIndicesBatchingDims := []
  startIndexMap := [0]
  indexVectorDim := 1
  sliceSizes := ![1]
  wf := wf

theorem gather_vecDims_apply (hR : 0 < R)
    (wf : GatherDims.WF ⟨1, ![R]⟩ ⟨2, ![N, 1]⟩ ⟨1, ![N]⟩ [] [0] [] [0] [] 1 ![1]) {w : Nat}
    (x : (⟨1, ![R]⟩ : Shape).Idx → α) (idx : IVec ⟨2, ![N, 1]⟩ w) (n : Fin N) :
    Host.gather (vecGatherDims R N wf) x idx (ix1 n) = x (ix1 (clampRow R hR (idx (ix2 n (0 : Fin 1))))) := by
  unfold Host.gather
  congr 1
  funext a
  refine Fin.ext ?_
  have e0 : ((vecGatherDims R N wf).operandIdx (ix1 n) idx 0).val = min (idx (ix2 n (0 : Fin 1))).toInt.toNat (R - 1) := by
    show (vecGatherDims R N wf).start (ix1 n) idx 0 + (vecGatherDims R N wf).batchCoord (ix1 n) 0
      + (vecGatherDims R N wf).offCoord (ix1 n) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecGatherDims R N wf).startIndexMap from List.mem_singleton.mpr rfl)]
    have hsi : (vecGatherDims R N wf).siIdx (ix1 n) ⟨List.idxOf (0 : Fin 1) (vecGatherDims R N wf).startIndexMap,
        List.idxOf_lt_length_iff.2 (List.mem_singleton.mpr rfl)⟩ = ix2 n (0 : Fin 1) := by
      funext b; refine Fin.ext ?_
      match b with
      | ⟨0, _⟩ => rfl
      | ⟨1, _⟩ => rfl
    rw [hsi]
    rfl
  match a with
  | ⟨0, _⟩ => exact e0

/-- THE VECTOR GATHER READ AT n: the operand at the clamped word n. -/
theorem gather_vec (g : GatherDims ⟨1, ![R]⟩ ⟨2, ![N, 1]⟩ ⟨1, ![N]⟩)
    (h1 : g.offsetDims = []) (h2 : g.collapsedSliceDims = [0]) (h3 : g.operandBatchingDims = [])
    (h4 : g.startIndicesBatchingDims = []) (h5 : g.startIndexMap = [0]) (h6 : g.indexVectorDim = 1)
    (h7 : g.sliceSizes = ![1]) (hR : 0 < R) {w : Nat}
    (x : (⟨1, ![R]⟩ : Shape).Idx → α) (idx : IVec ⟨2, ![N, 1]⟩ w) (n : Fin N) :
    Host.gather g x idx (ix1 n) = x (ix1 (clampRow R hR (idx (ix2 n (0 : Fin 1))))) := by
  obtain ⟨od, cd, ob, sb, sm, iv, ss, wf⟩ := g
  simp only at h1 h2 h3 h4 h5 h6 h7
  subst h1 h2 h3 h4 h5 h6 h7
  exact gather_vecDims_apply hR wf x idx n

end Gather

end Cert.LibSelfLoops

end
-- ==== Proof.LibGcnNorm.lean ====
/-
  The symmetric normalisation of a weighted edge list and the messages it sends, read at one entry, over any sizes.

  R nodes carry rows of C numbers, the table X; n edges are given as two vectors of index words, row (the
  destination) and col (the source), and a vector w of weights; D is a vector of R numbers, one per node (the
  inverse square roots of the degrees, but nothing here asks what it is). An index word is normalised before it
  picks a node to read (k is added when it is negative, k the number of nodes) and the normalised word is clamped
  into the table; the word that says where a message is ADDED is used as it stands, and a message whose word names
  no node is dropped. Edge e sends to node row e, in column c,

      X (col e, c) · ((D (row e) · w e) · D (col e)).

  Read at one entry: the table of messages at (e, c) is that product (`message_apply`); the degrees — the weights
  added up at their source words — at node r are the start value plus the weights of the edges whose col word is r
  (`degree_apply`); the messages added up at their destination words at (r, c) are the start value plus the
  messages of the edges whose row word is r (`aggregate_apply`). No order of accumulation is left in the sums.
-/
import Idealize.ShloMosaic.PureOps.Ideal
import Idealize.ShloMosaic.Lib.ValueIdx
import Idealize.ShloMosaic.Lib.Pipeline.Value
import proofs.«149535_j85031762526673_2_alg».proof.Proof.LibRowGatherScatter
import proofs.«149535_j85031762526673_2_alg».proof.Proof.LibSegmentSum
import proofs.«149535_j85031762526673_2_alg».proof.Proof.LibSelfLoops

noncomputable section

open scoped BigOperators

namespace Cert.LibGcnNorm

open Idealize.ShloMosaic Idealize.ShloMosaic.ValueIdx Cert.LibRowGatherScatter Cert.LibSegmentSum Cert.LibSelfLoops

variable {R n C : Nat}

/-- An array of index words normalised: k added to the negative ones. -/
def wrapVec {s : Shape} (k : BitVec 32) (h0 : (⟨0, ![]⟩ : Shape).BroadcastsInDim s ![]) (v : IVec s 32) : IVec s 32 :=
  select (cmpi .slt v (broadcastInDim s ![] h0 (constantI ⟨0, ![]⟩ 32 0#32)))
    (addi v (broadcastInDim s ![] h0 (constantI ⟨0, ![]⟩ 32 k))) v

/-- Entry by entry. -/
theorem wrapVec_apply {s : Shape} (k : BitVec 32) (h0 : (⟨0, ![]⟩ : Shape).BroadcastsInDim s ![]) (v : IVec s 32)
    (i : s.Idx) : wrapVec k h0 v i = wrapWord k (v i) :=
  wrap_apply k h0 h0 v i

/-- One number per node from its degree, as the programs spell it: the host's reciprocal square root where the degree
    is above zero, and zero elsewhere. -/
def invSqrtDeg {F : FTy → Type} [FloatOps F] (h0 : (⟨0, ![]⟩ : Shape).BroadcastsInDim ⟨1, ![R]⟩ ![])
    (deg : FVec F ⟨1, ![R]⟩ .f32) : FVec F ⟨1, ![R]⟩ .f32 :=
  select (cmpf .ogt deg (broadcastInDim ⟨1, ![R]⟩ ![] h0 (constant (F := F) ⟨0, ![]⟩ .f32 0x00000000#32)))
    (Host.rsqrt (F := F) deg)
    (broadcastInDim ⟨1, ![R]⟩ ![] h0 (id (constant (F := F) ⟨0, ![]⟩ .f32 0x00000000#32)))

/-- What an edge with index words rw (destination) and cw (source) and weight wt sends, in one column: the column's
    entry at the source node times the normalised weight (D at the destination · wt) · D at the source. -/
def edgeTerm (hR : 0 < R) (k : BitVec 32) (X D : Fin R → EReal) (rw cw : BitVec 32) (wt : EReal) : EReal :=
  X (clampRow R hR (wrapWord k cw)) * ((D (clampRow R hR (wrapWord k rw)) * wt) * D (clampRow R hR (wrapWord k cw)))

/-- The normalised weights of the edges: (D gathered at the destinations · w) · D gathered at the sources. -/
def normVec {F : FTy → Type} [FloatOps F] (gv : GatherDims ⟨1, ![R]⟩ ⟨2, ![n, 1]⟩ ⟨1, ![n]⟩)
    (hc : (⟨1, ![n]⟩ : Shape).BroadcastsInDim ⟨2, ![n, 1]⟩ ![0]) (h0 : (⟨0, ![]⟩ : Shape).BroadcastsInDim ⟨1, ![n]⟩ ![])
    (k : BitVec 32) (D : FVec F ⟨1, ![R]⟩ .f32) (row col : IVec ⟨1, ![n]⟩ 32) (w : FVec F ⟨1, ![n]⟩ .f32) :
    FVec F ⟨1, ![n]⟩ .f32 :=
  mulf (mulf (Host.gather gv D (broadcastInDim ⟨2, ![n, 1]⟩ ![0] hc (wrapVec k h0 row))) w)
    (Host.gather gv D (broadcastInDim ⟨2, ![n, 1]⟩ ![0] hc (wrapVec k h0 col)))

/-- The table of messages: the rows of X gathered at the sources, each times its edge's normalised weight. -/
def messages {F : FTy → Type} [FloatOps F] (gv : GatherDims ⟨1, ![R]⟩ ⟨2, ![n, 1]⟩ ⟨1, ![n]⟩)
    (gr : GatherDims ⟨2, ![R, C]⟩ ⟨2, ![n, 1]⟩ ⟨2, ![n, C]⟩)
    (hc : (⟨1, ![n]⟩ : Shape).BroadcastsInDim ⟨2, ![n, 1]⟩ ![0])
    (hw : (⟨2, ![n, 1]⟩ : Shape).BroadcastsInDim ⟨2, ![n, C]⟩ ![0, 1])
    (h0 : (⟨0, ![]⟩ : Shape).BroadcastsInDim ⟨1, ![n]⟩ ![])
    (k : BitVec 32) (X : FVec F ⟨2, ![R, C]⟩ .f32) (D : FVec F ⟨1, ![R]⟩ .f32)
    (row col : IVec ⟨1, ![n]⟩ 32) (w : FVec F ⟨1, ![n]⟩ .f32) : FVec F ⟨2, ![n, C]⟩ .f32 :=
  mulf (Host.gather gr X (broadcastInDim ⟨2, ![n, 1]⟩ ![0] hc (wrapVec k h0 col)))
    (broadcastInDim ⟨2, ![n, C]⟩ ![0, 1] hw (broadcastInDim ⟨2, ![n, 1]⟩ ![0] hc (normVec gv hc h0 k D row col w)))

/-- THE MESSAGE OF EDGE e IN COLUMN c. -/
theorem message_apply (hR : 0 < R) (hn : n ≠ 1)
    (gv : GatherDims ⟨1, ![R]⟩ ⟨2, ![n, 1]⟩ ⟨1, ![n]⟩) (gr : GatherDims ⟨2, ![R, C]⟩ ⟨2, ![n, 1]⟩ ⟨2, ![n, C]⟩)
    (v1 : gv.offsetDims = []) (v2 : gv.collapsedSliceDims = [0]) (v3 : gv.operandBatchingDims = [])
    (v4 : gv.startIndicesBatchingDims = []) (v5 : gv.startIndexMap = [0]) (v6 : gv.indexVectorDim = 1)
    (v7 : gv.sliceSizes = ![1])
    (r1 : gr.offsetDims = [1]) (r2 : gr.collapsedSliceDims = [0]) (r3 : gr.operandBatchingDims = [])
    (r4 : gr.startIndicesBatchingDims = []) (r5 : gr.startIndexMap = [0]) (r6 : gr.indexVectorDim = 1)
    (r7 : gr.sliceSizes = ![1, C])
    (hc : (⟨1, ![n]⟩ : Shape).BroadcastsInDim ⟨2, ![n, 1]⟩ ![0])
    (hw : (⟨2, ![n, 1]⟩ : Shape).BroadcastsInDim ⟨2, ![n, C]⟩ ![0, 1])
    (h0 : (⟨0, ![]⟩ : Shape).BroadcastsInDim ⟨1, ![n]⟩ ![])
    (k : BitVec 32) (X : FVec Ideal ⟨2, ![R, C]⟩ .f32) (D : FVec Ideal ⟨1, ![R]⟩ .f32)
    (row col : IVec ⟨1, ![n]⟩ 32) (w : FVec Ideal ⟨1, ![n]⟩ .f32) (e : Fin n) (c : Fin C) :
    messages (F := Ideal) gv gr hc hw h0 k X D row col w (ix2 e c)
      = edgeTerm hR k (fun ρ => X (ix2 ρ c)) (fun ρ => D (ix1 ρ)) (row (ix1 e)) (col (ix1 e)) (w (ix1 e)) := by
  unfold messages normVec edgeTerm
  rw [mulf_apply, gather_rows gr r1 r2 r3 r4 r5 r6 r7 hR, bcast_col_apply hn _ hc hw, mulf_apply, mulf_apply,
    gather_vec gv v1 v2 v3 v4 v5 v6 v7 hR, gather_vec gv v1 v2 v3 v4 v5 v6 v7 hR]
  simp only [column_apply hn, wrapVec_apply]

/-- THE DEGREE OF NODE r: the start value plus the weights of the edges whose source word is r. -/
theorem degree_apply (hn : n ≠ 1) (sd : ScatterDims ⟨1, ![R]⟩ ⟨2, ![n, 1]⟩ ⟨1, ![n]⟩)
    (s1 : sd.updateWindowDims = []) (s2 : sd.insertedWindowDims = [0])
    (s3 : sd.scatterDimsToOperandDims = [0]) (s4 : sd.indexVectorDim = 1)
    (hc : (⟨1, ![n]⟩ : Shape).BroadcastsInDim ⟨2, ![n, 1]⟩ ![0])
    (Z : FVec Ideal ⟨1, ![R]⟩ .f32) (col : IVec ⟨1, ![n]⟩ 32) (w : FVec Ideal ⟨1, ![n]⟩ .f32) (r : Fin R) :
    Host.scatterAdd (F := Ideal) sd Z (broadcastInDim ⟨2, ![n, 1]⟩ ![0] hc col) w (ix1 r)
      = Z (ix1 r) + ∑ e : Fin n, (if (col (ix1 e)).toInt = (r.val : ℤ) then w (ix1 e) else 0) := by
  rw [scatterAdd_seg sd s1 s2 s3 s4]
  simp only [column_apply hn]

/-- THE MESSAGES ADDED UP AT NODE r, COLUMN c: the start value plus the messages of the edges whose destination
    word is r. -/
theorem aggregate_apply (hn : n ≠ 1) (sd : ScatterDims ⟨2, ![R, C]⟩ ⟨2, ![n, 1]⟩ ⟨2, ![n, C]⟩)
    (s1 : sd.updateWindowDims = [1]) (s2 : sd.insertedWindowDims = [0])
    (s3 : sd.scatterDimsToOperandDims = [0]) (s4 : sd.indexVectorDim = 1)
    (hc : (⟨1, ![n]⟩ : Shape).BroadcastsInDim ⟨2, ![n, 1]⟩ ![0])
    (Z : FVec Ideal ⟨2, ![R, C]⟩ .f32) (row : IVec ⟨1, ![n]⟩ 32) (msg : FVec Ideal ⟨2, ![n, C]⟩ .f32)
    (r : Fin R) (c : Fin C) :
    Host.scatterAdd (F := Ideal) sd Z (broadcastInDim ⟨2, ![n, 1]⟩ ![0] hc row) msg (ix2 r c)
      = Z (ix2 r c) + ∑ e : Fin n, (if (row (ix1 e)).toInt = (r.val : ℤ) then msg (ix2 e c) else 0) := by
  rw [scatterAdd_rows sd s1 s2 s3 s4]
  simp only [column_apply hn]

end Cert.LibGcnNorm

end
-- ==== Proof.HostSide.lean ====
/-
  What the host operations before the dense stage leave in the array the stage reads.

  The entry point computes, from the table x of 100000 rows of 64 numbers, the two rows of 1200000 index words (the
  first the destinations, the second the sources) and the 1200000 weights:

    deg  = the weights added up at their source words, plus one at every node (the node's own loop),
    dinv = the reciprocal square root of deg where deg is above zero, zero elsewhere,
    agg  = the messages x (col e, ·) · ((dinv (row e) · w e) · dinv (col e)) added up at their destination words,
           plus x (r, ·) · (dinv r · dinv r) in every row r (the loop's own message).

  `aggK` is that array as one term of the three arguments.
-/
import proofs.«149535_j85031762526673_2_alg».proof.Proof.Gen.KernelIdeal.Frame
import proofs.«149535_j85031762526673_2_alg».proof.Proof.LibGcnNorm

noncomputable section

namespace Cert.KernelIdeal.HostSide

open Cert.KernelIdeal Cert.KernelIdeal.Gen Idealize.ShloMosaic Idealize.ShloMosaic.TcCoe Idealize.SL.Sem
open Idealize.ShloMosaic.StableHlo
open Cert.LibGcnNorm

variable {F : FTy → Type} [FloatOps F]

/-- The destination words: the first row of the index table. -/
def rowW (ei : IVec S2x1200000 32) : IVec S1200000 32 :=
  shapeCast S1200000 (extractStridedSlice S1x1200000 ![0, 0] ei slices_S2x1200000_S1x1200000_0_0)
    shapeCasts_S1x1200000_S1200000

/-- The source words: its second row. -/
def colW (ei : IVec S2x1200000 32) : IVec S1200000 32 :=
  shapeCast S1200000 (extractStridedSlice S1x1200000 ![1, 0] ei slices_S2x1200000_S1x1200000_1_0)
    shapeCasts_S1x1200000_S1200000

/-- The all-ones vector: each node's loop counted in its degree. -/
def ones : FVec F S100000 .f32 :=
  broadcastInDim S100000 ![] bcast_S_S100000 (constant (F := F) S_ .f32 0x3F800000#32)

/-- The degrees: the weights added up at their source words, plus one. -/
def degK (ei : IVec S2x1200000 32) (w : FVec F S1200000 .f32) : FVec F S100000 .f32 :=
  addf (Host.scatterAdd (F := F) scatter_S100000_S1200000x1_S1200000_n_0_0_1
      (broadcastInDim S100000 ![] bcast_S_S100000 (constant (F := F) S_ .f32 0x00000000#32))
      (broadcastInDim S1200000x1 ![0] bcast_S1200000_S1200000x1_0 (colW ei)) w) ones

/-- One number per node: the reciprocal square root of its degree where that is above zero. -/
def dinvK (ei : IVec S2x1200000 32) (w : FVec F S1200000 .f32) : FVec F S100000 .f32 :=
  invSqrtDeg bcast_S_S100000 (degK ei w)

/-- The messages of the 1200000 edges. -/
def msgK (x : FVec F S100000x64 .f32) (ei : IVec S2x1200000 32) (w : FVec F S1200000 .f32) :
    FVec F S1200000x64 .f32 :=
  messages gather_S100000_S1200000x1_S1200000_n_0_n_n_0_1_1 gather_S100000x64_S1200000x1_S1200000x64_1_0_n_n_0_1_164
    bcast_S1200000_S1200000x1_0 bcast_S1200000x1_S1200000x64_0_1 bcast_S_S1200000 100000#32 x (dinvK ei w)
    (rowW ei) (colW ei) w

/-- The loops' own messages: row r of x times dinv r · dinv r. -/
def loopK (x : FVec F S100000x64 .f32) (ei : IVec S2x1200000 32) (w : FVec F S1200000 .f32) :
    FVec F S100000x64 .f32 :=
  mulf x (broadcastInDim S100000x64 ![0, 1] bcast_S100000x1_S100000x64_0_1
    (broadcastInDim S100000x1 ![0] bcast_S100000_S100000x1_0 (mulf (dinvK ei w) (dinvK ei w))))

/-- The aggregated table the dense stage reads. -/
def aggK (x : FVec F S100000x64 .f32) (ei : IVec S2x1200000 32) (w : FVec F S1200000 .f32) :
    FVec F S100000x64 .f32 :=
  addf (Host.scatterAdd (F := F) scatter_S100000x64_S1200000x1_S1200000x64_1_0_0_1
      (broadcastInDim S100000x64 ![] bcast_S_S100000x64 (constant (F := F) S_ .f32 0x00000000#32))
      (broadcastInDim S1200000x1 ![0] bcast_S1200000_S1200000x1_0 (rowW ei)) (msgK x ei w))
    (loopK x ei w)

end Cert.KernelIdeal.HostSide

end
-- ==== Proof.HostRun.lean ====
/-
  The array the dense stage's first window reads, when the stage is entered, is the aggregated table `aggK` of the
  three arguments: the host operations before the stage, composed.
-/
import proofs.«149535_j85031762526673_2_alg».proof.Proof.Gen.KernelIdeal.Frame
import proofs.«149535_j85031762526673_2_alg».proof.Proof.HostSide
import Idealize.ShloMosaic.Lib.StableHlo.Run

noncomputable section

namespace Cert.KernelIdeal.HostSide

open Cert.KernelIdeal Cert.KernelIdeal.Gen Idealize.ShloMosaic Idealize.ShloMosaic.TcCoe Idealize.SL.Sem
open Idealize.ShloMosaic.StableHlo
open Cert.LibGcnNorm

variable {F : FTy → Type} [FloatOps F]

set_option maxRecDepth 16384 in
set_option maxHeartbeats 4000000 in
/-- When the dense stage is entered its first window's array holds the aggregated table of the three arguments. -/
theorem V_agg (m : (ℓ : Loc nD τ sig) → Buf (Elt F) ℓ) (c : Dev nD) :
    V (F := F) m c main_v46
      = aggK (m ((c : Thread nD τ).loc main_arg0)) (m ((c : Thread nD τ).loc main_arg1))
          (m ((c : Thread nD τ).loc main_arg2)) := by
  dsimp only [Gen.V]
  simp only [Gen.hostOps0, Gen.hostOps0_1, Gen.hostOps0_2, List.flatten_cons, List.flatten_nil, List.append_nil,
    List.cons_append, List.nil_append]
  after_results_simp
  rfl

end Cert.KernelIdeal.HostSide

end
-- ==== Proof.Blocks.lean ====
/-
  The dense stage, block by block, and the array it leaves.

  The stage runs on ten blocks of 10000 rows. At block t it reads rows 10000·t … 10000·t + 9999 of the aggregated
  table and of x, and the whole 64 × 64 weight matrix, and writes the same rows of its result: the maximum with zero
  of (0.9 · agg + 0.1 · x) · W on those rows (the two constants as their f32 words). Each row of that layer depends
  only on the same row of the two tables, so what block t writes is rows 10000·t … of the layer computed on the whole
  tables, `dense`; the ten blocks cover the 100000 rows, so the result array after the run is `dense` of the
  aggregated table, x and W.
-/
import proofs.«149535_j85031762526673_2_alg».proof.Proof.Gen.KernelIdeal.Value
import proofs.«149535_j85031762526673_2_alg».proof.Proof.LibResidualDense
import proofs.«149535_j85031762526673_2_alg».proof.Proof.HostRun

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)
open Cert.BlockRows Cert.LibResidualDense Cert.KernelIdeal.HostSide

/-- The layer on the whole tables: max ((0.9 · A + 0.1 · X) · W, 0), the two constants as their f32 words. -/
def dense {F : FTy → Type} [FloatOps F] (A X : FVec F S100000x64 .f32) (W : FVec F S64x64 .f32) :
    FVec F S100000x64 .f32 :=
  layer (F := F) 0x3F666666#32 0x3DCCCCCD#32 bcast_S_S100000x64 bcast_S_S100000x64 A X W

/-- Row p of block t is row 10000 · t + p of the tables. -/
def rowOf (t : Fin cfg0.N) (p : Fin 10000) : Fin 100000 :=
  ⟨10000 * t.val + p.val, by
    have ht : t.val < 10 := lt_of_lt_of_eq t.isLt N_0
    have hp := p.isLt
    omega⟩

/-- The body's stored value, spelt over the plain product (for any float instance: nothing is computed). -/
theorem stored_spelling {F : FTy → Type} [FloatOps F] (x0 x1 : Vec F S10000x64 .f32) (x2 : Vec F S64x64 .f32) :
    k0_pay1 (F := F) x0 x1 x2
      = maximumf (matmul (DotDims.plain 10000 64 64) none
          (truncf .bf16 (addf (mulf (broadcast S10000x64 (Scalar.ofBits (F := F) .f32 0x3F666666#32))
              (shapeCast S10000x64 x0 shapeCasts_S10000x64_S10000x64))
            (mulf (broadcast S10000x64 (Scalar.ofBits (F := F) .f32 0x3DCCCCCD#32)) x1)) bitsLt_bf16_f32)
          (truncf .bf16 x2 bitsLt_bf16_f32) (constant S10000x64 .f32 0x00000000#32))
        (broadcast S10000x64 (Scalar.ofBits (F := F) .f32 0x00000000#32)) := rfl

/-- What the body stores, from blocks that hold rows `rowOf t` of A and of X and the whole of W: those rows of the
    layer. -/
theorem stored (A X : FVec Ideal S100000x64 .f32) (W : FVec Ideal S64x64 .f32) (t : Fin cfg0.N)
    (x0 x1 : Vec Ideal S10000x64 .f32) (x2 : Vec Ideal S64x64 .f32)
    (h0 : ∀ (p : Fin 10000) (k : Fin 64), x0 (ix2 p k) = A (ix2 (rowOf t p) k))
    (h1 : ∀ (p : Fin 10000) (k : Fin 64), x1 (ix2 p k) = X (ix2 (rowOf t p) k))
    (h2 : ∀ (k n : Fin 64), x2 (ix2 k n) = W (ix2 k n)) :
    k0_pay1 (F := Ideal) x0 x1 x2 = rowsOf (rowOf t) (dense A X W) := by
  rw [stored_spelling]
  exact body_rows (rowOf t) 0x3F666666#32 0x3DCCCCCD#32 bitsLt_bf16_f32 shapeCasts_S10000x64_S10000x64
    bcast_S_S100000x64 bcast_S_S100000x64 A X W x0 x1 x2 h0 h1 h2

theorem hz : (![0, 0] : Fin 2 → Nat) = fun _ => 0 := funext fun a => by fin_cases a <;> rfl

/-- The printed index maps over the ten points: the three row-blocked windows sit at block (t, 0), the weight
    matrix's at block (0, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

section Reads

variable {F : FTy → Type} [FloatOps F] (m : (ℓ : Loc nD τ sig) → Buf (Elt F) ℓ)

/-- The first window's block at point t holds rows `rowOf t` of the aggregated table as the stage finds it. -/
theorem block0 (c : Dev nD) (t : Fin cfg0.N) (p : Fin 10000) (k : Fin 64) :
    iblk (F := F) m c 0 t (ix2 p k) = V (F := F) m c main_v46 (ix2 (rowOf t p) k) := by
  show V (F := F) m c main_v46 (((cfg0.win 0).blk t).view.emb (ix2 p k)) = _
  obtain ⟨e0, e1, -⟩ := idx_facts t
  refine congrArg (V (F := F) m c main_v46) ?_
  funext a; apply Fin.ext
  match a with
  | ⟨0, _⟩ =>
    show win0_0.index t (0 : Fin 2) * 10000 + 1 * p.val = 10000 * t.val + p.val
    rw [e0]; omega
  | ⟨1, _⟩ =>
    show win0_0.index t (1 : Fin 2) * 64 + 1 * k.val = k.val
    rw [e1]; omega

/-- The second window's block holds the same rows of x. -/
theorem block1 (c : Dev nD) (t : Fin cfg0.N) (p : Fin 10000) (k : Fin 64) :
    iblk (F := F) m c 1 t (ix2 p k) = V (F := F) m c main_arg0 (ix2 (rowOf t p) k) := by
  show V (F := F) m c main_arg0 (((cfg0.win 1).blk t).view.emb (ix2 p k)) = _
  obtain ⟨-, -, e0, e1, -⟩ := idx_facts t
  refine congrArg (V (F := F) m c main_arg0) ?_
  funext a; apply Fin.ext
  match a with
  | ⟨0, _⟩ =>
    show win0_1.index t (0 : Fin 2) * 10000 + 1 * p.val = 10000 * t.val + p.val
    rw [e0]; omega
  | ⟨1, _⟩ =>
    show win0_1.index t (1 : Fin 2) * 64 + 1 * k.val = k.val
    rw [e1]; omega

/-- The third window's block is the whole weight matrix. -/
theorem block2 (c : Dev nD) (t : Fin cfg0.N) (k n : Fin 64) :
    iblk (F := F) m c 2 t (ix2 k n) = V (F := F) m c main_arg3 (ix2 k n) := by
  show V (F := F) m c main_arg3 (((cfg0.win 2).blk t).view.emb (ix2 k n)) = _
  obtain ⟨-, -, -, -, e0, e1, -⟩ := idx_facts t
  refine congrArg (V (F := F) m c main_arg3) ?_
  funext a; apply Fin.ext
  match a with
  | ⟨0, _⟩ =>
    show win0_2.index t (0 : Fin 2) * 64 + 1 * k.val = k.val
    rw [e0]; omega
  | ⟨1, _⟩ =>
    show win0_2.index t (1 : Fin 2) * 64 + 1 * n.val = n.val
    rw [e1]; omega

/-- WHAT POINT t WRITES BACK, for any whole-array function G whose rows `rowOf t` are what the body stores from the
    point's blocks: block t of G. -/
theorem flushed_of (c : Dev nD) (t : Fin cfg0.N) (G : FVec F S100000x64 .f32)
    (hG : k0_pay1 (F := F) (iblk (F := F) m c 0 t) (iblk (F := F) m c 1 t) (iblk (F := F) m c 2 t)
      = rowsOf (rowOf t) G) :
    (dats (F := F) m 0 c).flushed 3 t = ((cfg0.win 3).blk t).view.read (Elt F) G := by
  rw [Value.flushed3]
  unfold out0_3
  rw [View.canon_unit_zero hz]
  simp only [View.ld_unit_zero (S := S10000x64) hz, View.ld_unit_zero (S := S64x64) hz]
  rw [hG]
  obtain ⟨-, -, -, -, -, -, e0, e1⟩ := idx_facts t
  funext j
  show G (ix2 (rowOf t (j 0)) (j 1)) = G (((cfg0.win 3).blk t).view.emb j)
  refine congrArg G ?_
  funext a; apply Fin.ext
  match a with
  | ⟨0, _⟩ =>
    show 10000 * t.val + (j 0).val = win0_3.index t (0 : Fin 2) * 10000 + 1 * (j 0).val
    rw [e0]; omega
  | ⟨1, _⟩ =>
    show (j 1).val = win0_3.index t (1 : Fin 2) * 64 + 1 * (j 1).val
    rw [e1]; omega

end Reads

variable (m : (ℓ : Loc nD τ sig) → Buf (Elt Ideal) ℓ)

/-- WHAT POINT t WRITES BACK is block t of the layer on the whole tables as the stage finds them. -/
theorem flushed_eq (c : Dev nD) (t : Fin cfg0.N) :
    (dats (F := Ideal) m 0 c).flushed 3 t = ((cfg0.win 3).blk t).view.read (Elt Ideal)
      (dense (F := Ideal) (V (F := Ideal) m c main_v46) (V (F := Ideal) m c main_arg0) (V (F := Ideal) m c main_arg3)) :=
  flushed_of m c t _
    (stored (V (F := Ideal) m c main_v46) (V (F := Ideal) m c main_arg0) (V (F := Ideal) m c main_arg3) t
      (iblk (F := Ideal) m c 0 t) (iblk (F := Ideal) m c 1 t) (iblk (F := Ideal) m c 2 t)
      (block0 m c t) (block1 m c t) (block2 m c t))

/-- An index of the array is in point t's block iff each coordinate is in the block's range on its axis. -/
theorem mem_blk (t : Fin cfg0.N) (i : S100000x64.Idx) :
    i ∈ ((cfg0.win 3).blk t).view.set ↔ ∀ a : Fin 2, win0_3.index t a * S10000x64.size a ≤ (i a).val
      ∧ (i a).val < win0_3.index t a * S10000x64.size a + S10000x64.size a := by
  show i ∈ ((View.whole main_v47).slice (win0_3.rect t)).set ↔ _
  rw [View.set_slice_whole, Rect.mem_set_unit]
  exact Iff.rfl

/-- The ten blocks cover the array: row r is in block r / 10000. -/
theorem cover (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hq : (i 0).val / 10000 < cfg0.N := by
    rw [show cfg0.N = 10 from N_0]; omega
  refine ⟨⟨(i 0).val / 10000, hq⟩, flush0_3 _, ?_⟩
  rw [mem_blk]
  obtain ⟨-, -, -, -, -, -, e0, e1⟩ := idx_facts ⟨(i 0).val / 10000, hq⟩
  intro a
  match a with
  | ⟨0, _⟩ =>
    show win0_3.index ⟨(i 0).val / 10000, hq⟩ (0 : Fin 2) * 10000 ≤ (i 0).val
      ∧ (i 0).val < win0_3.index ⟨(i 0).val / 10000, hq⟩ (0 : Fin 2) * 10000 + 10000
    rw [e0]
    show (i 0).val / 10000 * 10000 ≤ (i 0).val ∧ (i 0).val < (i 0).val / 10000 * 10000 + 10000
    omega
  | ⟨1, _⟩ =>
    show win0_3.index ⟨(i 0).val / 10000, hq⟩ (1 : Fin 2) * 64 ≤ (i 1).val
      ∧ (i 1).val < win0_3.index ⟨(i 0).val / 10000, hq⟩ (1 : Fin 2) * 64 + 64
    rw [e1]; omega

/-- THE RESULT ARRAY after the run: the layer of the aggregated table, x and W — each a term of the arguments. -/
theorem final (c : Dev nD) :
    (dats (F := Ideal) m 0 c).arrAt 3 cfg0.N
      = dense (F := Ideal) (aggK (m ((c : Thread nD τ).loc main_arg0)) (m ((c : Thread nD τ).loc main_arg1))
          (m ((c : Thread nD τ).loc main_arg2))) (m ((c : Thread nD τ).loc main_arg0))
          (m ((c : Thread nD τ).loc main_arg3)) := by
  rw [← V_agg m c, ← V_main_arg0 m c, ← V_main_arg3 m c]
  exact (dats (F := Ideal) m 0 c).arrAt_eq_of_cover 3 _ (fun t _ => flushed_eq m c t) cover

/-- The run, with the result array named as that layer. -/
theorem run (ρ : Dev nD → PrngReg) :
    θ_run defs (onTc (τ := τ) (main (F := Ideal))) ⟨m, fun _ => 0, ρ⟩ fun r => ∀ c : Dev nD,
      r.2.mem ((c : Thread nD τ).loc main_v47)
        = dense (F := Ideal) (aggK (m ((c : Thread nD τ).loc main_arg0)) (m ((c : Thread nD τ).loc main_arg1))
            (m ((c : Thread nD τ).loc main_arg2))) (m ((c : Thread nD τ).loc main_arg0))
            (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Blocks

end
-- ==== Proof.Degrees.lean ====
/-
  The lists with the loops appended, entry by entry; the degrees; the per-node numbers.

  The reference lengthens the three edge lists by 100000 entries — entry 1200000 + j is node j's loop: both index
  words the word of j, weight one. Entry e < 1200000 of a long list is entry e of the short one. The weights of the
  1300000 entries whose source word is r are those of the 1200000 edges whose source word is r and the one loop of
  r, of weight one: the reference's degrees are the entry point's (the edges' weights added up, plus one). The
  per-node numbers dinv, one function of the degrees, then agree too.
-/
import proofs.«149535_j85031762526673_2_alg».proof.Proof.Gen.ReferenceIdeal.Read
import proofs.«149535_j85031762526673_2_alg».proof.Proof.HostSide
import Idealize.ShloMosaic.Lib.IdealHost

noncomputable section

open scoped BigOperators

namespace Cert.Aggregate

open Idealize.ShloMosaic Idealize.ShloMosaic.ValueIdx
open Cert.ReferenceIdeal Cert.ReferenceIdeal.Read Cert.ReferenceIdeal.Facts₀ Cert.ReferenceIdeal.Facts
open Cert.LibRowGatherScatter Cert.LibSelfLoops Cert.LibGcnNorm
open Cert.KernelIdeal.HostSide

/-! ## The reference's stages in the library's spelling (for any float instance: nothing is computed) -/

section Spelling

variable {F : FTy → Type} [FloatOps F]

/-- The reference's per-node numbers are the reciprocal-square-root rule applied to its degrees. -/
theorem dinv_long (ei : IVec S2x1200000 32) (w : FVec F S1200000 .f32) :
    val_main_v15 (F := F) ei w = invSqrtDeg bcast_S_S100000 (val_main_v11 (F := F) ei w) := rfl

/-- The reference's message table is the library's, over the long lists. -/
theorem msgs_long (x : FVec F S100000x64 .f32) (ei : IVec S2x1200000 32) (w : FVec F S1200000 .f32) :
    val_main_v41 (F := F) x ei w
      = messages gather_S100000_S1300000x1_S1300000_n_0_n_n_0_1_1 gather_S100000x64_S1300000x1_S1300000x64_1_0_n_n_0_1_164
          bcast_S1300000_S1300000x1_0 bcast_S1300000x1_S1300000x64_0_1 bcast_S_S1300000 100000#32 x
          (val_main_v15 (F := F) ei w) (val_main_v3 (F := F) ei) (val_main_v6 (F := F) ei)
          (val_main_v8 (F := F) w) := rfl

/-- The reference's all-ones vector is the entry point's. -/
theorem ones_long : val_main_v7 (F := F) = ones (F := F) := rfl

/-- The all-zero vector the entry point starts its degrees from … -/
def zerosK : FVec F Cert.KernelIdeal.S100000 .f32 :=
  broadcastInDim Cert.KernelIdeal.S100000 ![] Cert.KernelIdeal.Gen.bcast_S_S100000
    (constant (F := F) Cert.KernelIdeal.S_ .f32 0x00000000#32)

/-- … is the reference's. -/
theorem zeros_long : val_main_v9 (F := F) = zerosK (F := F) := rfl

/-- The entry point's degrees, spelt over it. -/
theorem degK_eq (ei : IVec S2x1200000 32) (w : FVec F S1200000 .f32) :
    degK ei w = addf (Host.scatterAdd (F := F) Cert.KernelIdeal.scatter_S100000_S1200000x1_S1200000_n_0_0_1 zerosK
      (broadcastInDim Cert.KernelIdeal.S1200000x1 ![0] Cert.KernelIdeal.Gen.bcast_S1200000_S1200000x1_0 (colW ei)) w)
      ones := rfl

end Spelling

variable (ei : IVec S2x1200000 32) (w : FVec Ideal S1200000 .f32)

/-! ## The long lists, entry by entry -/

theorem rows_edge (e : Fin 1200000) (h : e.val < 1300000) :
    val_main_v3 (F := Ideal) ei (ix1 ⟨e.val, h⟩) = rowW ei (ix1 e) :=
  join_left concatenates_S1200000_S100000_S1300000_d0 (val_main_v2 (F := Ideal) ei) (val_main_v0 (F := Ideal)) e h

theorem rows_loop (j : Fin 100000) (h : 1200000 + j.val < 1300000) :
    val_main_v3 (F := Ideal) ei (ix1 ⟨1200000 + j.val, h⟩) = BitVec.ofNat 32 j.val :=
  join_right concatenates_S1200000_S100000_S1300000_d0 (val_main_v2 (F := Ideal) ei) (val_main_v0 (F := Ideal)) j h

theorem cols_edge (e : Fin 1200000) (h : e.val < 1300000) :
    val_main_v6 (F := Ideal) ei (ix1 ⟨e.val, h⟩) = colW ei (ix1 e) :=
  join_left concatenates_S1200000_S100000_S1300000_d0 (val_main_v5 (F := Ideal) ei) (val_main_v0 (F := Ideal)) e h

theorem cols_loop (j : Fin 100000) (h : 1200000 + j.val < 1300000) :
    val_main_v6 (F := Ideal) ei (ix1 ⟨1200000 + j.val, h⟩) = BitVec.ofNat 32 j.val :=
  join_right concatenates_S1200000_S100000_S1300000_d0 (val_main_v5 (F := Ideal) ei) (val_main_v0 (F := Ideal)) j h

theorem weights_edge (e : Fin 1200000) (h : e.val < 1300000) :
    val_main_v8 (F := Ideal) w (ix1 ⟨e.val, h⟩) = w (ix1 e) :=
  join_left concatenates_S1200000_S100000_S1300000_d0 w (val_main_v7 (F := Ideal)) e h

theorem weights_loop (j : Fin 100000) (h : 1200000 + j.val < 1300000) :
    val_main_v8 (F := Ideal) w (ix1 ⟨1200000 + j.val, h⟩) = ones (F := Ideal) (ix1 j) :=
  (join_right concatenates_S1200000_S100000_S1300000_d0 w (val_main_v7 (F := Ideal)) j h).trans
    (congrFun ones_long (ix1 j))

/-- A loop's weight is one. -/
theorem ones_apply (j : Fin 100000) : ones (F := Ideal) (ix1 j) = 1 := by
  unfold ones
  rw [broadcastInDim_scalar_apply, constant_apply]
  exact Ideal.ofBits_one_f32

/-! ## The degrees and the per-node numbers -/

/-- The reference's degrees at node r: zero plus the weights of the 1300000 entries whose source word is r. -/
theorem deg_long_apply (r : Fin 100000) :
    val_main_v11 (F := Ideal) ei w (ix1 r) = val_main_v9 (F := Ideal) (ix1 r)
      + ∑ e : Fin 1300000, (if (val_main_v6 (F := Ideal) ei (ix1 e)).toInt = (r.val : ℤ)
          then val_main_v8 (F := Ideal) w (ix1 e) else 0) :=
  degree_apply (R := 100000) (n := 1300000) (by norm_num) scatter_S100000_S1300000x1_S1300000_n_0_0_1
    rfl rfl rfl rfl bcast_S1300000_S1300000x1_0 (val_main_v9 (F := Ideal)) (val_main_v6 (F := Ideal) ei)
    (val_main_v8 (F := Ideal) w) r

/-- The entry point's degrees at node r: zero plus the weights of the 1200000 edges whose source word is r, plus one. -/
theorem deg_edges_apply (r : Fin 100000) :
    degK ei w (ix1 r) = (val_main_v9 (F := Ideal) (ix1 r)
      + ∑ e : Fin 1200000, (if (colW ei (ix1 e)).toInt = (r.val : ℤ) then w (ix1 e) else 0))
      + ones (F := Ideal) (ix1 r) := by
  rw [degK_eq, addf_apply, zeros_long,
    degree_apply (R := 100000) (n := 1200000) (by norm_num)
      Cert.KernelIdeal.scatter_S100000_S1200000x1_S1200000_n_0_0_1 rfl rfl rfl rfl
      Cert.KernelIdeal.Gen.bcast_S1200000_S1200000x1_0 (zerosK (F := Ideal)) (colW ei) w r]

/-- The degrees over the long lists are the degrees over the edges plus one. -/
theorem deg_eq : val_main_v11 (F := Ideal) ei w = degK ei w := by
  funext i
  obtain ⟨r, rfl⟩ : ∃ r : Fin 100000, i = ix1 r := ⟨i 0, eq_ix1 i⟩
  rw [deg_long_apply, deg_edges_apply,
    sum_edges_loops (n := 1200000) (R := 100000) (t := 1300000) rfl r
      (fun e => (val_main_v6 (F := Ideal) ei (ix1 e)).toInt) (fun e => val_main_v8 (F := Ideal) w (ix1 e))
      (fun e => (colW ei (ix1 e)).toInt) (fun e => w (ix1 e)) (fun j => ones (F := Ideal) (ix1 j))
      (fun e => congrArg BitVec.toInt (cols_edge ei e _)) (fun e => weights_edge w e _)
      (fun j => (congrArg BitVec.toInt (cols_loop ei j _)).trans (toInt_word (by have := j.isLt; omega)))
      (fun j => weights_loop w j _), add_assoc]

/-- So the per-node numbers are the same. -/
theorem dinv_eq : val_main_v15 (F := Ideal) ei w = dinvK ei w :=
  (dinv_long ei w).trans (congrArg (invSqrtDeg bcast_S_S100000) (deg_eq ei w))

end Cert.Aggregate

end
-- ==== Proof.Aggregate.lean ====
/-
  The loops appended to the edge list against the loops folded in: the two aggregated tables are one.

  Entry e < 1200000 of the long lists is edge e, with the same per-node numbers dinv (`Degrees`), so it sends the same
  message x (col e, c) · ((dinv (row e) · w e) · dinv (col e)). Entry 1200000 + j has both index words the word of
  j — not negative, below 100000: normalised and clamped it is still j — and weight one, so it sends
  x (j, c) · ((dinv j · 1) · dinv j) to node j: the loop's own message x (j, c) · (dinv j · dinv j) that the entry
  point adds to row j. So, at every (r, c), the 1300000 messages added up at r are the 1200000 messages added up at r
  plus the loop's.

  Only the commutative monoid of the extended reals and a · 1 = a are used: nothing asks the inputs to be finite.
-/
import proofs.«149535_j85031762526673_2_alg».proof.Proof.Degrees

noncomputable section

open scoped BigOperators

namespace Cert.Aggregate

open Idealize.ShloMosaic Idealize.ShloMosaic.ValueIdx
open Cert.ReferenceIdeal Cert.ReferenceIdeal.Read Cert.ReferenceIdeal.Facts₀ Cert.ReferenceIdeal.Facts
open Cert.LibRowGatherScatter Cert.LibSelfLoops Cert.LibGcnNorm
open Cert.KernelIdeal.HostSide

section Spelling

variable {F : FTy → Type} [FloatOps F]

/-- The all-zero table the entry point starts its aggregate from … -/
def zeroTableK : FVec F Cert.KernelIdeal.S100000x64 .f32 :=
  broadcastInDim Cert.KernelIdeal.S100000x64 ![] Cert.KernelIdeal.Gen.bcast_S_S100000x64
    (constant (F := F) Cert.KernelIdeal.S_ .f32 0x00000000#32)

/-- … is the reference's. -/
theorem zeroTable_long : val_main_v42 (F := F) = zeroTableK (F := F) := rfl

/-- The entry point's aggregate, spelt over it. -/
theorem aggK_eq (x : FVec F S100000x64 .f32) (ei : IVec S2x1200000 32) (w : FVec F S1200000 .f32) :
    aggK x ei w = addf (Host.scatterAdd (F := F) Cert.KernelIdeal.scatter_S100000x64_S1200000x1_S1200000x64_1_0_0_1
      zeroTableK (broadcastInDim Cert.KernelIdeal.S1200000x1 ![0] Cert.KernelIdeal.Gen.bcast_S1200000_S1200000x1_0
        (rowW ei)) (msgK x ei w)) (loopK x ei w) := rfl

end Spelling

variable (x : FVec Ideal S100000x64 .f32) (ei : IVec S2x1200000 32) (w : FVec Ideal S1200000 .f32)

/-! ## The messages -/

/-- Entry (e, c) of the long message table, e among the 1300000: what an edge with those words and that weight sends. -/
theorem msgs_long_apply (e : Fin 1300000) (c : Fin 64) :
    val_main_v41 (F := Ideal) x ei w (ix2 e c)
      = edgeTerm (R := 100000) (by norm_num) 100000#32 (fun ρ => x (ix2 ρ c)) (fun ρ => dinvK ei w (ix1 ρ))
          (val_main_v3 (F := Ideal) ei (ix1 e)) (val_main_v6 (F := Ideal) ei (ix1 e)) (val_main_v8 (F := Ideal) w (ix1 e)) := by
  rw [msgs_long, dinv_eq]
  exact message_apply (R := 100000) (n := 1300000) (C := 64) (by norm_num) (by norm_num)
    gather_S100000_S1300000x1_S1300000_n_0_n_n_0_1_1 gather_S100000x64_S1300000x1_S1300000x64_1_0_n_n_0_1_164
    rfl rfl rfl rfl rfl rfl rfl rfl rfl rfl rfl rfl rfl rfl
    bcast_S1300000_S1300000x1_0 bcast_S1300000x1_S1300000x64_0_1 bcast_S_S1300000 100000#32 x (dinvK ei w)
    (val_main_v3 (F := Ideal) ei) (val_main_v6 (F := Ideal) ei) (val_main_v8 (F := Ideal) w) e c

/-- Entry (e, c) of the edges' message table. -/
theorem msgs_edges_apply (e : Fin 1200000) (c : Fin 64) :
    msgK x ei w (ix2 e c)
      = edgeTerm (R := 100000) (by norm_num) 100000#32 (fun ρ => x (ix2 ρ c)) (fun ρ => dinvK ei w (ix1 ρ))
          (rowW ei (ix1 e)) (colW ei (ix1 e)) (w (ix1 e)) :=
  message_apply (R := 100000) (n := 1200000) (C := 64) (by norm_num) (by norm_num)
    Cert.KernelIdeal.gather_S100000_S1200000x1_S1200000_n_0_n_n_0_1_1
    Cert.KernelIdeal.gather_S100000x64_S1200000x1_S1200000x64_1_0_n_n_0_1_164
    rfl rfl rfl rfl rfl rfl rfl rfl rfl rfl rfl rfl rfl rfl
    Cert.KernelIdeal.Gen.bcast_S1200000_S1200000x1_0 Cert.KernelIdeal.Gen.bcast_S1200000x1_S1200000x64_0_1
    Cert.KernelIdeal.Gen.bcast_S_S1200000 100000#32 x (dinvK ei w) (rowW ei) (colW ei) w e c

/-- What node j's loop sends: x (j, c) · ((D j · 1) · D j) = x (j, c) · (D j · D j). -/
theorem edgeTerm_loop (X D : Fin 100000 → EReal) (j : Fin 100000) :
    edgeTerm (R := 100000) (by norm_num) 100000#32 X D (BitVec.ofNat 32 j.val) (BitVec.ofNat 32 j.val) 1
      = X j * (D j * D j) := by
  unfold edgeTerm
  rw [wrapWord_word (by have := j.isLt; omega), clampRow_word (by norm_num) (by norm_num), mul_one]

/-- The loops' own messages, as the entry point adds them, at (j, c). -/
theorem loop_apply (j : Fin 100000) (c : Fin 64) :
    loopK x ei w (ix2 j c) = x (ix2 j c) * (dinvK ei w (ix1 j) * dinvK ei w (ix1 j)) := by
  unfold loopK
  rw [mulf_apply, bcast_col_apply (by norm_num), mulf_apply]

/-- Entry 1200000 + j of the long message table is node j's own message. -/
theorem msgs_long_loop (j : Fin 100000) (c : Fin 64) (h : 1200000 + j.val < 1300000) :
    val_main_v41 (F := Ideal) x ei w (ix2 ⟨1200000 + j.val, h⟩ c) = loopK x ei w (ix2 j c) := by
  rw [msgs_long_apply, rows_loop, cols_loop, weights_loop, ones_apply, edgeTerm_loop, loop_apply]

/-- Entry e < 1200000 of the long message table is edge e's message. -/
theorem msgs_long_edge (e : Fin 1200000) (c : Fin 64) (h : e.val < 1300000) :
    val_main_v41 (F := Ideal) x ei w (ix2 ⟨e.val, h⟩ c) = msgK x ei w (ix2 e c) := by
  rw [msgs_long_apply, msgs_edges_apply, rows_edge, cols_edge, weights_edge]

/-! ## The aggregated tables -/

/-- The reference's aggregate at (r, c): zero plus the messages of the 1300000 entries whose destination word is r. -/
theorem agg_long_apply (r : Fin 100000) (c : Fin 64) :
    val_main_v44 (F := Ideal) x ei w (ix2 r c) = val_main_v42 (F := Ideal) (ix2 r c)
      + ∑ e : Fin 1300000, (if (val_main_v3 (F := Ideal) ei (ix1 e)).toInt = (r.val : ℤ)
          then val_main_v41 (F := Ideal) x ei w (ix2 e c) else 0) :=
  aggregate_apply (R := 100000) (n := 1300000) (C := 64) (by norm_num)
    scatter_S100000x64_S1300000x1_S1300000x64_1_0_0_1 rfl rfl rfl rfl bcast_S1300000_S1300000x1_0
    (val_main_v42 (F := Ideal)) (val_main_v3 (F := Ideal) ei) (val_main_v41 (F := Ideal) x ei w) r c

/-- The entry point's aggregate at (r, c): zero plus the messages of the 1200000 edges whose destination word is r,
    plus the loop's own. -/
theorem agg_edges_apply (r : Fin 100000) (c : Fin 64) :
    aggK x ei w (ix2 r c) = (val_main_v42 (F := Ideal) (ix2 r c)
      + ∑ e : Fin 1200000, (if (rowW ei (ix1 e)).toInt = (r.val : ℤ) then msgK x ei w (ix2 e c) else 0))
      + loopK x ei w (ix2 r c) := by
  rw [aggK_eq, addf_apply, zeroTable_long,
    aggregate_apply (R := 100000) (n := 1200000) (C := 64) (by norm_num)
      Cert.KernelIdeal.scatter_S100000x64_S1200000x1_S1200000x64_1_0_0_1 rfl rfl rfl rfl
      Cert.KernelIdeal.Gen.bcast_S1200000_S1200000x1_0 (zeroTableK (F := Ideal)) (rowW ei) (msgK x ei w) r c]

/-- THE TWO AGGREGATES ARE ONE: the messages of the 1300000 entries added up at their destinations are those of the
    1200000 edges added up at theirs plus the loops' own. -/
theorem agg_eq : val_main_v44 (F := Ideal) x ei w = aggK x ei w := by
  funext i
  obtain ⟨r, c, rfl⟩ : ∃ (r : Fin 100000) (c : Fin 64), i = ix2 r c := ⟨i 0, i 1, eq_ix2 i⟩
  rw [agg_long_apply, agg_edges_apply,
    sum_edges_loops (n := 1200000) (R := 100000) (t := 1300000) rfl r
      (fun e => (val_main_v3 (F := Ideal) ei (ix1 e)).toInt) (fun e => val_main_v41 (F := Ideal) x ei w (ix2 e c))
      (fun e => (rowW ei (ix1 e)).toInt) (fun e => msgK x ei w (ix2 e c)) (fun j => loopK x ei w (ix2 j c))
      (fun e => congrArg BitVec.toInt (rows_edge ei e _)) (fun e => msgs_long_edge x ei w e c _)
      (fun j => (congrArg BitVec.toInt (rows_loop ei j _)).trans (toInt_word (by have := j.isLt; omega)))
      (fun j => msgs_long_loop x ei w j c _), add_assoc]

end Cert.Aggregate

end
-- ==== Proof.lean ====
/-
  A graph-convolution layer with an initial residual on 100000 nodes of 64 features and 1200000 weighted edges:
  the table x is propagated along the edges with the symmetric normalisation, every node also sending to itself,

      agg (r, ·) = Σ over the edges e into r of x (col e, ·) · dinv (row e) · w e · dinv (col e)  +  x (r, ·) · dinv r²,
      dinv r = (1 + Σ over the edges e out of r of w e)^(−1/2) where that degree is above zero, else 0,

  and the result is max ((0.9 · agg + 0.1 · x) · W, 0), the two constants the f32 words nearest 0.9 and 0.1.

  The entry point computes agg on the host with the loop of every node folded in (one added to every degree, the
  loop's message added as one entry-by-entry product) and leaves the dense part — the combination, the product with
  W and the maximum — to a kernel on ten blocks of 10000 rows. The reference appends the 100000 loops to the three
  edge lists and does everything on the host. On the extended reals the two are one function of the arguments:

  * the dense part on a block of rows is those rows of the dense part on the whole tables, the ten blocks cover the
    rows, and converting the two factors of the product to a narrower float format changes nothing (`Blocks`);
  * the 1300000 entries added up at a node are the 1200000 edges added up there plus that node's loop, for the
    degrees and for the messages alike, and a loop of weight one sends x (j, ·) · (dinv j · 1 · dinv j) (`Aggregate`).

  Sums are only regrouped and a factor one dropped, so the inputs need not be finite for the two results to agree.
  The three programs' runs, their termination and the arguments left unchanged, are the generated frame modules'
  and the generated run of the reference; the kernel's idealization rewrote nothing, so it is preserved trivially.
-/
import proofs.«149535_j85031762526673_2_alg».proof.Defs
import proofs.«149535_j85031762526673_2_alg».proof.Proof.Gen.Kernel
import proofs.«149535_j85031762526673_2_alg».proof.Proof.Gen.Kernel.Skeleton
import proofs.«149535_j85031762526673_2_alg».proof.Proof.Gen.Kernel.Launch
import proofs.«149535_j85031762526673_2_alg».proof.Proof.Gen.Kernel.Points
import proofs.«149535_j85031762526673_2_alg».proof.Proof.Gen.Kernel.Frame
import proofs.«149535_j85031762526673_2_alg».proof.Proof.Gen.KernelIdeal
import proofs.«149535_j85031762526673_2_alg».proof.Proof.Gen.KernelIdeal.Skeleton
import proofs.«149535_j85031762526673_2_alg».proof.Proof.Gen.KernelIdeal.Launch
import proofs.«149535_j85031762526673_2_alg».proof.Proof.Gen.KernelIdeal.Points
import proofs.«149535_j85031762526673_2_alg».proof.Proof.Gen.KernelIdeal.Frame
import proofs.«149535_j85031762526673_2_alg».proof.Proof.Gen.ReferenceIdeal
import proofs.«149535_j85031762526673_2_alg».proof.Proof.Gen.Pre_finite_inputs
import proofs.«149535_j85031762526673_2_alg».proof.Proof.Gen.KernelIdeal.Value
import proofs.«149535_j85031762526673_2_alg».proof.Proof.Gen.ReferenceIdeal.Run
import proofs.«149535_j85031762526673_2_alg».proof.Proof.Gen.ReferenceIdeal.Read
import proofs.«149535_j85031762526673_2_alg».proof.Proof.Blocks
import proofs.«149535_j85031762526673_2_alg».proof.Proof.Aggregate
import Idealize.ShloMosaic.Adequacy
import Idealize.ShloMosaic.Init

noncomputable section

namespace Cert.Proof

open Idealize.ShloMosaic Idealize.ShloMosaic.TcCoe Idealize.SL.Sem

/-- The word-level kernel runs, and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The reference's result is the dense part of its own aggregated table, of x and of W. -/
theorem reference_result {F : FTy → Type} [FloatOps F] (x0 : FVec F Cert.ReferenceIdeal.S100000x64 .f32)
    (x1 : IVec Cert.ReferenceIdeal.S2x1200000 32) (x2 : FVec F Cert.ReferenceIdeal.S1200000 .f32)
    (x3 : FVec F Cert.ReferenceIdeal.S64x64 .f32) :
    Cert.ReferenceIdeal.Read.val_main_v51 (F := F) x0 x1 x2 x3
      = Cert.KernelIdeal.Blocks.dense (Cert.ReferenceIdeal.Read.val_main_v44 (F := F) x0 x1 x2) x0 x3 := rfl

/-- From memories that agree on the four arguments the two programs end with the same result: the dense part of
    one aggregated table. -/
theorem algebraic : Cert.algebraic_KernelIdeal_ReferenceIdeal := by
  intro m ρ m' ρ' _ hagree
  refine ⟨_, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v51_eq, reference_result, Cert.Aggregate.agg_eq, (hagree c).1,
    (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
